-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x1024 : Shape := ⟨3, ![16, 256, 1024]⟩
abbrev S32000x1024 : Shape := ⟨2, ![32000, 1024]⟩
abbrev S1024x1024 : Shape := ⟨2, ![1024, 1024]⟩
abbrev S1024 : Shape := ⟨1, ![1024]⟩
abbrev S_ : Shape := ⟨0, ![]⟩

class Facts : Prop where
  bcast_S_S16x256x1024 : S_.BroadcastsInDim S16x256x1024 (![] : Fin 0 → Fin S16x256x1024.rank)
  reducesTo_S16x256x1024_S_d0_1_2 : S16x256x1024.ReducesTo [0, 1, 2] S_
  h_S_ : 0 < S_.numel
  bcast_S_S32000x1024 : S_.BroadcastsInDim S32000x1024 (![] : Fin 0 → Fin S32000x1024.rank)
  reducesTo_S32000x1024_S_d0_1 : S32000x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16x256x1024 .f32) (main_arg1 : FVec F S32000x1024 .f32) (main_arg2 : FVec F S1024x1024 .f32) (main_arg3 : FVec F S1024 .f32) (main_arg4 : FVec F S1024 .f32) (main_arg5 : FVec F S1024 .f32) : IVec S_ 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_c : IVec S_ 1 := constantI S_ 1 1#1
  let main_v3 : IVec S_ 1 := (fun x v => Host.reduce IntOp.andi x v reducesTo_S16x256x1024_S_d0_1_2 h_S_) main_v2 main_c
  let main_v4 : FVec F S32000x1024 .f32 := Host.absf main_arg1
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S16x256x1024 : Shape := ⟨3, ![16, 256, 1024]⟩
abbrev S32000x1024 : Shape := ⟨2, ![32000, 1024]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S1280x1024 : Shape := ⟨2, ![1280, 1024]⟩
abbrev S512x1 : Shape := ⟨2, ![512, 1]⟩
abbrev S512x1280 : Shape := ⟨2, ![512, 1280]⟩
abbrev S512 : Shape := ⟨1, ![512]⟩

abbrev nBuf : Space → Nat
  | .hbm => 16
  | .vmem => 15
  | .smem => 0
  | _ => 0

abbrev bufTy : (tb : Table) → Fin (tcTables nBuf tb) → BufTy
  | .hbm, ⟨0, _⟩ => ⟨S16x256x1024, .f32⟩
  | .hbm, ⟨1, _⟩ => ⟨S32000x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x1024, .f32⟩
  | .hbm, ⟨7, _⟩ => ⟨S4096x1024, .bf16⟩
  | .hbm, ⟨8, _⟩ => ⟨S32000x1024, .bf16⟩
  | .hbm, ⟨9, _⟩ => ⟨S1024x1024, .f32⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S16x256x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1, .f32⟩
  | .local _ .vmem, ⟨14, _⟩ => ⟨S512x1, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v39 : BitVec 1 := Scalar.cmpi .eq arg1 c24_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  shapeCasts_S16x256x1024_S4096x1024 : S16x256x1024.ShapeCasts S4096x1024
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  reduces_S512x1280_S512 : S512x1280.Reduces [1] S512
  shapeCasts_S512_S512x1 : S512.ShapeCasts S512x1
  broadcasts_S512x1_S512x1280 : S512x1.Broadcasts S512x1280
  broadcasts_S512x1_S512x1024 : S512x1.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S4096x1024_S16x256x1024 : S4096x1024.ShapeCasts S16x256x1024
  dot_S512x1024_S1280x1024_S512x1280_1_1_0_0_n_n_wf : DotDims.WF S512x1024 S1280x1024 S512x1280 [1] [1] [0] [0] [] []
  dot_S512x1280_S1280x1024_S512x1024_1_0_0_1_n_n_wf : DotDims.WF S512x1280 S1280x1024 S512x1024 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .bf16 = 32 ∨ (Rect.block (s := S4096x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x1024.size a ≤ S32000x1024.size a
  hwx0_2 : ∀ i : grid0.Coords, EltTy.bits .bf16 = 32 ∨ (Rect.block (s := S32000x1024) S1280x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .f32 = 32 ∨ (Rect.block (s := S4096x1024) S512x1024.size (cc0_transform_7 i) (hinb0_7 i)).WholeWords (EltTy.packing .f32)

variable [Facts₀]

def dot_S512x1024_S1280x1024_S512x1280_1_1_0_0_n_n : DotDims S512x1024 S1280x1024 S512x1280 where
  lhsContracting := [1]
  rhsContracting := [1]
  lhsNonContracting := [0]
  rhsNonContracting := [0]
  lhsBatch := []
  rhsBatch := []
  wf := dot_S512x1024_S1280x1024_S512x1280_1_1_0_0_n_n_wf
def dot_S512x1280_S1280x1024_S512x1024_1_0_0_1_n_n : DotDims S512x1280 S1280x1024 S512x1024 where
  lhsContracting := [1]
  rhsContracting := [0]
  lhsNonContracting := [0]
  rhsNonContracting := [1]
  lhsBatch := []
  rhsBatch := []
  wf := dot_S512x1280_S1280x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1280x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16x256x1024 : Shape := ⟨3, ![16, 256, 1024]⟩
abbrev S32000x1024 : Shape := ⟨2, ![32000, 1024]⟩
abbrev S1024x1024 : Shape := ⟨2, ![1024, 1024]⟩
abbrev S1024 : Shape := ⟨1, ![1024]⟩
abbrev S16x256x32000 : Shape := ⟨3, ![16, 256, 32000]⟩
abbrev S_ : Shape := ⟨0, ![]⟩
abbrev S16x256 : Shape := ⟨2, ![16, 256]⟩
abbrev S16x256x1 : Shape := ⟨3, ![16, 256, 1]⟩
abbrev S1x1x1024 : Shape := ⟨3, ![1, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S32000x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S16x256x32000, .f32⟩
  | .hbm, ⟨7, _⟩ => ⟨S_, .f32⟩
  | .hbm, ⟨8, _⟩ => ⟨S16x256, .f32⟩
  | .hbm, ⟨9, _⟩ => ⟨S_, .f32⟩
  | .hbm, ⟨10, _⟩ => ⟨S16x256, .f32⟩
  | .hbm, ⟨11, _⟩ => ⟨S16x256, .f32⟩
  | .hbm, ⟨12, _⟩ => ⟨S16x256x1, .f32⟩
  | .hbm, ⟨13, _⟩ => ⟨S16x256x32000, .f32⟩
  | .hbm, ⟨14, _⟩ => ⟨S16x256x32000, .f32⟩
  | .hbm, ⟨15, _⟩ => ⟨S16x256x32000, .f32⟩
  | .hbm, ⟨16, _⟩ => ⟨S_, .f32⟩
  | .hbm, ⟨17, _⟩ => ⟨S16x256, .f32⟩
  | .hbm, ⟨18, _⟩ => ⟨S16x256x1, .f32⟩
  | .hbm, ⟨19, _⟩ => ⟨S16x256x32000, .f32⟩
  | .hbm, ⟨20, _⟩ => ⟨S16x256x32000, .f32⟩
  | .hbm, ⟨21, _⟩ => ⟨S16x256x1024, .f32⟩
  | .hbm, ⟨22, _⟩ => ⟨S16x256x1024, .f32⟩
  | .hbm, ⟨23, _⟩ => ⟨S1x1x1024, .f32⟩
  | .hbm, ⟨24, _⟩ => ⟨S16x256x1024, .f32⟩
  | .hbm, ⟨25, _⟩ => ⟨S16x256x1024, .f32⟩
  | .hbm, ⟨26, _⟩ => ⟨S16x256x1024, .f32⟩
  | .hbm, ⟨27, _⟩ => ⟨S_, .f32⟩
  | .hbm, ⟨28, _⟩ => ⟨S16x256, .f32⟩
  | .hbm, ⟨29, _⟩ => ⟨S16x256x1, .f32⟩
  | .hbm, ⟨30, _⟩ => ⟨S_, .f32⟩
  | .hbm, ⟨31, _⟩ => ⟨S16x256x1, .f32⟩
  | .hbm, ⟨32, _⟩ => ⟨S16x256x1, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S_, .f32⟩
  | .hbm, ⟨37, _⟩ => ⟨S16x256, .f32⟩
  | .hbm, ⟨38, _⟩ => ⟨S16x256x1, .f32⟩
  | .hbm, ⟨39, _⟩ => ⟨S_, .f32⟩
  | .hbm, ⟨40, _⟩ => ⟨S16x256x1, .f32⟩
  | .hbm, ⟨41, _⟩ => ⟨S16x256x1, .f32⟩
  | .hbm, ⟨42, _⟩ => ⟨S16x256x1024, .f32⟩
  | .hbm, ⟨43, _⟩ => ⟨S16x256x1024, .f32⟩
  | .hbm, ⟨44, _⟩ => ⟨S_, .f32⟩
  | .hbm, ⟨45, _⟩ => ⟨S16x256x1, .f32⟩
  | .hbm, ⟨46, _⟩ => ⟨S16x256x1, .f32⟩
  | .hbm, ⟨47, _⟩ => ⟨S16x256x1, .f32⟩
  | .hbm, ⟨48, _⟩ => ⟨S16x256x1024, .f32⟩
  | .hbm, ⟨49, _⟩ => ⟨S16x256x1024, .f32⟩
  | .hbm, ⟨50, _⟩ => ⟨S1x1x1024, .f32⟩
  | .hbm, ⟨51, _⟩ => ⟨S16x256x1024, .f32⟩
  | .hbm, ⟨52, _⟩ => ⟨S16x256x1024, .f32⟩
  | .hbm, ⟨53, _⟩ => ⟨S1x1x1024, .f32⟩
  | .hbm, ⟨54, _⟩ => ⟨S16x256x1024, .f32⟩
  | .hbm, ⟨55, _⟩ => ⟨S16x256x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]

class Facts₀ : Prop where
  reducesTo_S16x256x32000_S16x256_d2 : S16x256x32000.ReducesTo [2] S16x256
  h_S_ : 0 < S_.numel
  bcast_S_S16x256 : S_.BroadcastsInDim S16x256 (![] : Fin 0 → Fin S16x256.rank)
  bcast_S16x256_S16x256x1_0_1 : S16x256.BroadcastsInDim S16x256x1 (![0, 1] : Fin 2 → Fin S16x256x1.rank)
  bcast_S16x256x1_S16x256x32000_0_1_2 : S16x256x1.BroadcastsInDim S16x256x32000 (![0, 1, 2] : Fin 3 → Fin S16x256x32000.rank)
  bcast_S1024_S1x1x1024_2 : S1024.BroadcastsInDim S1x1x1024 (![2] : Fin 1 → Fin S1x1x1024.rank)
  bcast_S1x1x1024_S16x256x1024_0_1_2 : S1x1x1024.BroadcastsInDim S16x256x1024 (![0, 1, 2] : Fin 3 → Fin S16x256x1024.rank)
  reducesTo_S16x256x1024_S16x256_d2 : S16x256x1024.ReducesTo [2] S16x256
  bcast_S_S16x256x1 : S_.BroadcastsInDim S16x256x1 (![] : Fin 0 → Fin S16x256x1.rank)
  bcast_S16x256x1_S16x256x1024_0_1_2 : S16x256x1.BroadcastsInDim S16x256x1024 (![0, 1, 2] : Fin 3 → Fin S16x256x1024.rank)
  dot_S16x256x1024_S32000x1024_S16x256x32000_2_1_01_0_n_n_wf : DotDims.WF S16x256x1024 S32000x1024 S16x256x32000 [2] [1] [0, 1] [0] [] []
  dot_S16x256x32000_S32000x1024_S16x256x1024_2_0_01_1_n_n_wf : DotDims.WF S16x256x32000 S32000x1024 S16x256x1024 [2] [0] [0, 1] [1] [] []
  dot_S16x256x1024_S1024x1024_S16x256x1024_2_1_01_0_n_n_wf : DotDims.WF S16x256x1024 S1024x1024 S16x256x1024 [2] [1] [0, 1] [0] [] []

variable [Facts₀]

def dot_S16x256x1024_S32000x1024_S16x256x32000_2_1_01_0_n_n : DotDims S16x256x1024 S32000x1024 S16x256x32000 where
  lhsContracting := [2]
  rhsContracting := [1]
  lhsNonContracting := [0, 1]
  rhsNonContracting := [0]
  lhsBatch := []
  rhsBatch := []
  wf := dot_S16x256x1024_S32000x1024_S16x256x32000_2_1_01_0_n_n_wf
def dot_S16x256x32000_S32000x1024_S16x256x1024_2_0_01_1_n_n : DotDims S16x256x32000 S32000x1024 S16x256x1024 where
  lhsContracting := [2]
  rhsContracting := [0]
  lhsNonContracting := [0, 1]
  rhsNonContracting := [1]
  lhsBatch := []
  rhsBatch := []
  wf := dot_S16x256x32000_S32000x1024_S16x256x1024_2_0_01_1_n_n_wf
def dot_S16x256x1024_S1024x1024_S16x256x1024_2_1_01_0_n_n : DotDims S16x256x1024 S1024x1024 S16x256x1024 where
  lhsContracting := [2]
  rhsContracting := [1]
  lhsNonContracting := [0, 1]
  rhsNonContracting := [0]
  lhsBatch := []
  rhsBatch := []
  wf := dot_S16x256x1024_S1024x1024_S16x256x1024_2_1_01_0_n_n_wf

class Facts : Prop extends Facts₀ where

variable [Facts]
-- ==== Proof.Pieces.lean ====
/-
  What one grid step leaves in the three carried buffers and in the output block, as the step's arithmetic applied to what
  the step found.

  A step reads the query block x1, the prototype block x2 and the carried running maximum, denominator and numerator
  (xs1, xs2, xs0). It leaves
      the new maximum        newMax  = max (old maximum) (row maxima of the scores),
      the new denominator    newDen  = exp (old max - new max) * old denominator + row sums of exp (scores - new max),
      the new numerator      newNum  = exp (old max - new max) * old numerator + exp (scores - new max) · prototypes.
  At the first step of a row block the three buffers are first reset to -∞, 0 and 0, so the same formulas are applied to
  those constants. At the last step the output block is the normalised residual row computed from newNum / newDen.
  Every store covers its whole buffer, so each buffer ends at the payload of its last store, and every load reads a
  whole buffer, so each payload's arguments are the buffers' contents.
-/
import proofs.«149692_j13486197309573_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- The new running maximum from the blocks and the old maximum. -/
abbrev newMax (x1 : Vec F S512x1024 .bf16) (x2 : Vec F S1280x1024 .bf16) (m : Vec F S512x1 .f32) : Vec F S512x1 .f32 :=
  k0_pay2 (k0_pay10 x1 x2 m)
/-- The new running denominator. -/
abbrev newDen (x1 : Vec F S512x1024 .bf16) (x2 : Vec F S1280x1024 .bf16) (m l : Vec F S512x1 .f32) : Vec F S512x1 .f32 :=
  k0_pay13 x1 x2 m l
/-- The new running numerator. -/
abbrev newNum (x1 : Vec F S512x1024 .bf16) (x2 : Vec F S1280x1024 .bf16) (m : Vec F S512x1 .f32) (a : Vec F S512x1024 .f32) :
    Vec F S512x1024 .f32 :=
  k0_pay1 (k0_pay14 x1 x2 m a)

/-- First step of a row block: the numerator after the reset. -/
theorem first_num (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1280x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x1024 .f32) (x1 : Vec F S512x1024 .bf16) (x2 : Vec F S1280x1024 .bf16) (x3 : Vec F S1024x1024 .bf16) (x4 : Vec F S1x1024 .f32) (x5 : Vec F S1x1024 .f32) (x6 : Vec F S1x1024 .f32)  :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6  = newNum x1 x2 (k0_pay4 (F := F)) (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 )]
  unfold kernelRun0_A
  dsimp only
  sl_unfold_words
  rw [View.canon_cons_unit_zero hz]
  simp only [View.readCov_unit_zero (S := S512x1024) _ hz, View.readCov_unit_zero (S := S512x1) _ hz, View.readAt_eq_ld, harg2.read_unread, harg3.read_unread, harg4.read_unread, harg5.read_unread, harg6.read_unread, harg7.read_unread, harg8.read_unread, harg10.read_unread, harg11.read_unread, harg12.read_unread, View.ld_unit_zero (S := S512x1024) hz, View.ld_unit_zero (S := S1280x1024) hz, View.ld_unit_zero (S := S1024x1024) hz, View.ld_unit_zero (S := S1x1024) hz, View.ld_unit_zero (S := S512x1) hz]

/-- First step: the maximum after the reset. -/
theorem first_max (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1280x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x1024 .f32) (x1 : Vec F S512x1024 .bf16) (x2 : Vec F S1280x1024 .bf16) (x3 : Vec F S1024x1024 .bf16) (x4 : Vec F S1x1024 .f32) (x5 : Vec F S1x1024 .f32) (x6 : Vec F S1x1024 .f32)  :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6  = newMax x1 x2 (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 )]
  unfold kernelRun0_A
  dsimp only
  sl_unfold_words
  rw [View.canon_cons_unit_zero hz]
  simp only [View.readCov_unit_zero (S := S512x1024) _ hz, View.readCov_unit_zero (S := S512x1) _ hz, View.readAt_eq_ld, harg2.read_unread, harg3.read_unread, harg4.read_unread, harg5.read_unread, harg6.read_unread, harg7.read_unread, harg8.read_unread, harg10.read_unread, harg11.read_unread, harg12.read_unread, View.ld_unit_zero (S := S512x1024) hz, View.ld_unit_zero (S := S1280x1024) hz, View.ld_unit_zero (S := S1024x1024) hz, View.ld_unit_zero (S := S1x1024) hz, View.ld_unit_zero (S := S512x1) hz]

/-- First step: the denominator after the reset. -/
theorem first_den (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1280x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1 .f32) (harg11 : arg11.IsWhole) (arg12 : Memref sig .tc .vmem S512x1 .f32) (harg12 : arg12.IsWhole) (hc0 : cond0_0 i) (hc1 : ¬cond0_1 i) (x0 : Vec F S512x1024 .f32) (x1 : Vec F S512x1024 .bf16) (x2 : Vec F S1280x1024 .bf16) (x3 : Vec F S1024x1024 .bf16) (x4 : Vec F S1x1024 .f32) (x5 : Vec F S1x1024 .f32) (x6 : Vec F S1x1024 .f32)  :
    sout0_A_2 c i arg2 harg2 arg3 harg3 arg4 harg4 arg5 harg5 arg6 harg6 arg7 harg7 arg8 harg8 arg9 harg9 arg10 harg10 arg11 harg11 arg12 harg12 hc0 hc1 x0 x1 x2 x3 x4 x5 x6  = newDen x1 x2 (k0_pay4 (F := F)) (k0_pay5 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 hc0 hc1 x0 x1 x2 x3 x4 x5 x6 )]
  unfold kernelRun0_A
  dsimp only
  sl_unfold_words
  rw [View.canon_cons_unit_zero hz]
  simp only [View.readCov_unit_zero (S := S512x1024) _ hz, View.readCov_unit_zero (S := S512x1) _ hz, View.readAt_eq_ld, harg2.read_unread, harg3.read_unread, harg4.read_unread, harg5.read_unread, harg6.read_unread, harg7.read_unread, harg8.read_unread, harg10.read_unread, harg11.read_unread, harg12.read_unread, View.ld_unit_zero (S := S512x1024) hz, View.ld_unit_zero (S := S1280x1024) hz, View.ld_unit_zero (S := S1024x1024) hz, View.ld_unit_zero (S := S1x1024) hz, View.ld_unit_zero (S := S512x1) hz]

/-- A middle step: the numerator. -/
theorem mid_num (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1280x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x1024 .f32) (x1 : Vec F S512x1024 .bf16) (x2 : Vec F S1280x1024 .bf16) (x3 : Vec F S1024x1024 .bf16) (x4 : Vec F S1x1024 .f32) (x5 : Vec F S1x1024 .f32) (x6 : Vec F S1x1024 .f32) (xs0 : Vec F S512x1024 .f32) (xs1 : Vec F S512x1 .f32) (xs2 : Vec F S512x1 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = newNum x1 x2 xs1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz]
  simp only [View.readCov_unit_zero (S := S512x1024) _ hz, View.readCov_unit_zero (S := S512x1) _ hz, View.readAt_eq_ld, harg2.read_unread, harg3.read_unread, harg4.read_unread, harg5.read_unread, harg6.read_unread, harg7.read_unread, harg8.read_unread, harg10.read_unread, harg11.read_unread, harg12.read_unread, View.ld_unit_zero (S := S512x1024) hz, View.ld_unit_zero (S := S1280x1024) hz, View.ld_unit_zero (S := S1024x1024) hz, View.ld_unit_zero (S := S1x1024) hz, View.ld_unit_zero (S := S512x1) hz]

/-- A middle step: the maximum. -/
theorem mid_max (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1280x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x1024 .f32) (x1 : Vec F S512x1024 .bf16) (x2 : Vec F S1280x1024 .bf16) (x3 : Vec F S1024x1024 .bf16) (x4 : Vec F S1x1024 .f32) (x5 : Vec F S1x1024 .f32) (x6 : Vec F S1x1024 .f32) (xs0 : Vec F S512x1024 .f32) (xs1 : Vec F S512x1 .f32) (xs2 : Vec F S512x1 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = newMax x1 x2 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz]
  simp only [View.readCov_unit_zero (S := S512x1024) _ hz, View.readCov_unit_zero (S := S512x1) _ hz, View.readAt_eq_ld, harg2.read_unread, harg3.read_unread, harg4.read_unread, harg5.read_unread, harg6.read_unread, harg7.read_unread, harg8.read_unread, harg10.read_unread, harg11.read_unread, harg12.read_unread, View.ld_unit_zero (S := S512x1024) hz, View.ld_unit_zero (S := S1280x1024) hz, View.ld_unit_zero (S := S1024x1024) hz, View.ld_unit_zero (S := S1x1024) hz, View.ld_unit_zero (S := S512x1) hz]

/-- A middle step: the denominator. -/
theorem mid_den (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1280x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : ¬cond0_1 i) (x0 : Vec F S512x1024 .f32) (x1 : Vec F S512x1024 .bf16) (x2 : Vec F S1280x1024 .bf16) (x3 : Vec F S1024x1024 .bf16) (x4 : Vec F S1x1024 .f32) (x5 : Vec F S1x1024 .f32) (x6 : Vec F S1x1024 .f32) (xs0 : Vec F S512x1024 .f32) (xs1 : Vec F S512x1 .f32) (xs2 : Vec F S512x1 .f32) :
    sout0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = newDen x1 x2 xs1 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_B
  dsimp only
  sl_unfold_words
  rw [View.canon_unit_zero hz]
  simp only [View.readCov_unit_zero (S := S512x1024) _ hz, View.readCov_unit_zero (S := S512x1) _ hz, View.readAt_eq_ld, harg2.read_unread, harg3.read_unread, harg4.read_unread, harg5.read_unread, harg6.read_unread, harg7.read_unread, harg8.read_unread, harg10.read_unread, harg11.read_unread, harg12.read_unread, View.ld_unit_zero (S := S512x1024) hz, View.ld_unit_zero (S := S1280x1024) hz, View.ld_unit_zero (S := S1024x1024) hz, View.ld_unit_zero (S := S1x1024) hz, View.ld_unit_zero (S := S512x1) hz]

/-- The last step: the numerator. -/
theorem last_num (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1280x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x1024 .f32) (x1 : Vec F S512x1024 .bf16) (x2 : Vec F S1280x1024 .bf16) (x3 : Vec F S1024x1024 .bf16) (x4 : Vec F S1x1024 .f32) (x5 : Vec F S1x1024 .f32) (x6 : Vec F S1x1024 .f32) (xs0 : Vec F S512x1024 .f32) (xs1 : Vec F S512x1 .f32) (xs2 : Vec F S512x1 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = newNum x1 x2 xs1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz]
  simp only [View.readCov_unit_zero (S := S512x1024) _ hz, View.readCov_unit_zero (S := S512x1) _ hz, View.readAt_eq_ld, harg2.read_unread, harg3.read_unread, harg4.read_unread, harg5.read_unread, harg6.read_unread, harg7.read_unread, harg8.read_unread, harg10.read_unread, harg11.read_unread, harg12.read_unread, View.ld_unit_zero (S := S512x1024) hz, View.ld_unit_zero (S := S1280x1024) hz, View.ld_unit_zero (S := S1024x1024) hz, View.ld_unit_zero (S := S1x1024) hz, View.ld_unit_zero (S := S512x1) hz]

/-- The last step: the maximum. -/
theorem last_max (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1280x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x1024 .f32) (x1 : Vec F S512x1024 .bf16) (x2 : Vec F S1280x1024 .bf16) (x3 : Vec F S1024x1024 .bf16) (x4 : Vec F S1x1024 .f32) (x5 : Vec F S1x1024 .f32) (x6 : Vec F S1x1024 .f32) (xs0 : Vec F S512x1024 .f32) (xs1 : Vec F S512x1 .f32) (xs2 : Vec F S512x1 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = newMax x1 x2 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz]
  simp only [View.readCov_unit_zero (S := S512x1024) _ hz, View.readCov_unit_zero (S := S512x1) _ hz, View.readAt_eq_ld, harg2.read_unread, harg3.read_unread, harg4.read_unread, harg5.read_unread, harg6.read_unread, harg7.read_unread, harg8.read_unread, harg10.read_unread, harg11.read_unread, harg12.read_unread, View.ld_unit_zero (S := S512x1024) hz, View.ld_unit_zero (S := S1280x1024) hz, View.ld_unit_zero (S := S1024x1024) hz, View.ld_unit_zero (S := S1x1024) hz, View.ld_unit_zero (S := S512x1) hz]

/-- The last step: the denominator. -/
theorem last_den (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1280x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x1024 .f32) (x1 : Vec F S512x1024 .bf16) (x2 : Vec F S1280x1024 .bf16) (x3 : Vec F S1024x1024 .bf16) (x4 : Vec F S1x1024 .f32) (x5 : Vec F S1x1024 .f32) (x6 : Vec F S1x1024 .f32) (xs0 : Vec F S512x1024 .f32) (xs1 : Vec F S512x1 .f32) (xs2 : Vec F S512x1 .f32) :
    sout0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = newDen x1 x2 xs1 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz]
  simp only [View.readCov_unit_zero (S := S512x1024) _ hz, View.readCov_unit_zero (S := S512x1) _ hz, View.readAt_eq_ld, harg2.read_unread, harg3.read_unread, harg4.read_unread, harg5.read_unread, harg6.read_unread, harg7.read_unread, harg8.read_unread, harg10.read_unread, harg11.read_unread, harg12.read_unread, View.ld_unit_zero (S := S512x1024) hz, View.ld_unit_zero (S := S1280x1024) hz, View.ld_unit_zero (S := S1024x1024) hz, View.ld_unit_zero (S := S1x1024) hz, View.ld_unit_zero (S := S512x1) hz]

/-- The last step: the output block, from the query block, the new numerator and denominator, the weights, bias, scale and shift. -/
theorem last_out (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S1280x1024 .bf16) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S512x1024 .f32) (harg9 : arg9.IsWhole) (arg10 : Memref sig .tc .vmem S512x1024 .f32) (harg10 : arg10.IsWhole) (arg11 : Memref sig .tc .vmem S512x1 .f32) (harg11 : arg11.IsWhole) (arg12 : Memref sig .tc .vmem S512x1 .f32) (harg12 : arg12.IsWhole) (hc0 : ¬cond0_0 i) (hc1 : cond0_1 i) (x0 : Vec F S512x1024 .f32) (x1 : Vec F S512x1024 .bf16) (x2 : Vec F S1280x1024 .bf16) (x3 : Vec F S1024x1024 .bf16) (x4 : Vec F S1x1024 .f32) (x5 : Vec F S1x1024 .f32) (x6 : Vec F S1x1024 .f32) (xs0 : Vec F S512x1024 .f32) (xs1 : Vec F S512x1 .f32) (xs2 : Vec F S512x1 .f32) :
    out0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2 = k0_pay3 (k0_pay7 x0) (newNum x1 x2 xs1 xs0) (newDen x1 x2 xs1 xs2) x3 x4 x5 x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 hc0 hc1 x0 x1 x2 x3 x4 x5 x6 xs0 xs1 xs2)]
  unfold kernelRun0_C
  dsimp only
  sl_unfold_words
  rw [View.canon_unit_zero hz]
  simp only [View.readCov_unit_zero (S := S512x1024) _ hz, View.readCov_unit_zero (S := S512x1) _ hz, View.readAt_eq_ld, harg2.read_unread, harg3.read_unread, harg4.read_unread, harg5.read_unread, harg6.read_unread, harg7.read_unread, harg8.read_unread, harg10.read_unread, harg11.read_unread, harg12.read_unread, View.ld_unit_zero (S := S512x1024) hz, View.ld_unit_zero (S := S1280x1024) hz, View.ld_unit_zero (S := S1024x1024) hz, View.ld_unit_zero (S := S1x1024) hz, View.ld_unit_zero (S := S512x1) hz]

end Cert.KernelIdeal.Pieces
end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLaneMax.lean ====
/-
  GENERAL LEMMA: a maximum over the lane axis of a matrix, read at a row on extended reals.

  * laneMax_apply: a float maximum-reduction over axis 1 of an [a, b] matrix, started from an accumulator word, read at
    row r, is the fold of max from the accumulator's value over the b entries (r, k) of that row. Because max on the
    extended reals commutes and associates, the order in which the entries are visited does not matter, so the fold is
    over the finite set of lane positions.
  Nothing here mentions a program; the extents a and b are arbitrary.
-/
import proofs.«149692_j13486197309573_2_alg».proof.Proof.LibLayout

noncomputable section

namespace Cert.LibLaneMax

open Idealize.ShloMosaic Idealize.ShloMosaic.ValueIdx

/-- A float maximum over the lane axis of a matrix, read at row `r` at the exact instance: the fold of `max`, from
    the accumulator's value, over the row's entries. -/
theorem laneMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) :=
  (Ideal.multiReduction_maximumf_single v acc h hφ hacc (ix1 r)).trans
    (congrArg (fun f : Fin b → EReal => (Finset.univ : Finset (Fin b)).fold max (Ideal.ofBits .f32 acc) f)
      (funext fun k => congrArg v (Cert.LibLayout.lift_row h r k)))

end Cert.LibLaneMax

end
-- ==== Proof.LibContractAt.lean ====
/-
  GENERAL LEMMAS: a contraction over ONE axis, read at an output index, as a plain sum over that axis' coordinate,
  whatever the arrangement of the two operands (which axis of each is contracted, whether an operand enters transposed).

  The dimension record of a matrix product names, for an output index j and a contraction index s, one index of each
  operand. When the contraction has a single axis of extent K, the contraction indices are the numbers below K, and the
  product at j is the sum over k : Fin K of l (li k) * r (ri k), where li k and ri k are the two operand indices that the
  record names at j and k. The caller says what li and ri are (two equations per use, usually closed coordinate by
  coordinate); nothing here depends on the shapes.

  * contraction_at: the re-indexing of the sum.
  * matmul_at: the matrix unit's product into a zero accumulator, at j.
  * hostdot_at: the host's dot_general, at j.
  * contr_val: the number a contraction index stands for is its one coordinate.
  Only a change of summation index is used: no law of extended-real arithmetic, so no finiteness.
-/
import Idealize.ShloMosaic.PureOps.Ideal
import Idealize.ShloMosaic.PureOps.Ideal.Laws
import Idealize.ShloMosaic.Lib.ValueIdx

noncomputable section

namespace Cert.LibContractAt

open Idealize.ShloMosaic Idealize.ShloMosaic.ValueIdx
open scoped BigOperators

/-- The number a one-axis contraction index stands for is its one coordinate. -/
theorem contr_val {sl sr so : Shape} (d : DotDims sl sr so) (K : ℕ) (hrank : d.contr.rank = 1)
    (hsize : d.contr.size ⟨0, by omega⟩ = K) (s : d.contr.Idx) :
    ((contrEquiv1 d K hrank hsize s : Fin K) : ℕ) = (s ⟨0, by omega⟩).val := rfl

/-- A one-axis contraction at the output index j is the sum over k of l (li k) * r (ri k), where li and ri are the operand
    indices the record names at j. -/
theorem contraction_at {sl sr so : Shape} (d : DotDims sl sr so) (K : ℕ) (hrank : d.contr.rank = 1)
    (hsize : d.contr.size ⟨0, by omega⟩ = K) (l : sl.Idx → EReal) (r : sr.Idx → EReal) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    ∑ s : d.contr.Idx, l (d.lhsIdx j s) * r (d.rhsIdx j s) = ∑ k : Fin K, l (li k) * r (ri k) := by
  rw [← Equiv.sum_comp (contrEquiv1 d K hrank hsize)]
  exact Finset.sum_congr rfl fun s _ => by rw [hl s, hr s]

/-- The matrix unit's product into a zero accumulator, at j. -/
theorem matmul_at {sl sr so : Shape} (d : DotDims sl sr so) (K : ℕ) (hrank : d.contr.rank = 1)
    (hsize : d.contr.size ⟨0, by omega⟩ = K) {φ₁ φ₂ : FTy} (l : FVec Ideal sl φ₁) (r : FVec Ideal sr φ₂) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    matmul d none l r (constant (F := Ideal) so .f32 0x00000000#32) j = ∑ k : Fin K, l (li k) * r (ri k) :=
  (Ideal.matmul_constant_zero_apply d none l r j).trans (contraction_at d K hrank hsize l r j li ri hl hr)

/-- The host's dot_general, at j. -/
theorem hostdot_at {sl sr so : Shape} (d : DotDims sl sr so) (K : ℕ) (hrank : d.contr.rank = 1)
    (hsize : d.contr.size ⟨0, by omega⟩ = K) (l : FVec Ideal sl .f32) (r : FVec Ideal sr .f32) (j : so.Idx)
    (li : Fin K → sl.Idx) (ri : Fin K → sr.Idx)
    (hl : ∀ s : d.contr.Idx, d.lhsIdx j s = li (contrEquiv1 d K hrank hsize s))
    (hr : ∀ s : d.contr.Idx, d.rhsIdx j s = ri (contrEquiv1 d K hrank hsize s)) :
    Host.dotGeneral d none l r j = ∑ k : Fin K, l (li k) * r (ri k) :=
  (Ideal.dotGeneral_apply d none .single l r j).trans (contraction_at d K hrank hsize l r j li ri hl hr)

end Cert.LibContractAt

end
-- ==== Proof.StepRead.lean ====
/-
  One grid step's arithmetic, entry by entry, on extended reals.

  With q the query block (512 rows), P the prototype block (1280 rows) and, per row r, the old running maximum m r:
      score r j   = ∑ d, q r d * P j d                                    (the first matrix product)
      newMax r    = max (m r) (the maximum over j of score r j, started from -∞)
      scale r     = exp (m r - newMax r)
      weight r j  = exp (score r j - newMax r)
      newDen r    = scale r * (old denominator r) + ∑ j, weight r j
      newNum r d  = scale r * (old numerator r d) + ∑ j, weight r j * P j d    (the second matrix product)
  Each line is one layout fact (a column [512] -> [512,1], a column broadcast over the lanes, a lane reduction read at a
  row, a one-axis contraction read at an entry) applied to the step's named intermediate values.
-/
import proofs.«149692_j13486197309573_2_alg».proof.Proof.Pieces
import proofs.«149692_j13486197309573_2_alg».proof.Proof.LibLayout
import proofs.«149692_j13486197309573_2_alg».proof.Proof.LibLaneMax
import proofs.«149692_j13486197309573_2_alg».proof.Proof.LibContractAt
import Idealize.ShloMosaic.Lib.ValueIdx
import Idealize.ShloMosaic.Lib.Pipeline.Value
import Idealize.ShloMosaic.PureOps.Ideal.Laws

noncomputable section

namespace Cert.KernelIdeal.StepRead

open Cert.KernelIdeal Cert.KernelIdeal.Gen Cert.KernelIdeal.Pieces
open Idealize.ShloMosaic Idealize.ShloMosaic.ValueIdx
open scoped BigOperators

/-- The first product's dimension record: rows of q against rows of P. -/
abbrev dQP : DotDims S512x1024 S1280x1024 S512x1280 := dot_S512x1024_S1280x1024_S512x1280_1_1_0_0_n_n
/-- The second product's: weights against the columns of P. -/
abbrev dWP : DotDims S512x1280 S1280x1024 S512x1024 := dot_S512x1280_S1280x1024_S512x1024_1_0_0_1_n_n

theorem qp_l0 (j : S512x1280.Idx) (s : dQP.contr.Idx) : (dQP.lhsIdx j s 0).val = (j 0).val := by
  unfold DotDims.lhsIdx
  rw [dif_neg (show ¬(0 : Fin S512x1024.rank) ∈ dQP.lhsBatch by decide), dif_pos (show (0 : Fin S512x1024.rank) ∈ dQP.lhsNonContracting by decide)]
  rfl
theorem qp_l1 (j : S512x1280.Idx) (s : dQP.contr.Idx) : (dQP.lhsIdx j s 1).val = (s ⟨0, by decide⟩).val :=
  dQP.lhsIdx_val_of_single rfl j s
theorem qp_r0 (j : S512x1280.Idx) (s : dQP.contr.Idx) : (dQP.rhsIdx j s 0).val = (j 1).val := by
  unfold DotDims.rhsIdx
  rw [dif_neg (show ¬(0 : Fin S1280x1024.rank) ∈ dQP.rhsBatch by decide), dif_pos (show (0 : Fin S1280x1024.rank) ∈ dQP.rhsNonContracting by decide)]
  rfl
theorem qp_r1 (j : S512x1280.Idx) (s : dQP.contr.Idx) : (dQP.rhsIdx j s 1).val = (s ⟨0, by decide⟩).val :=
  dQP.rhsIdx_val_of_single rfl j s

theorem wp_l0 (j : S512x1024.Idx) (s : dWP.contr.Idx) : (dWP.lhsIdx j s 0).val = (j 0).val := by
  unfold DotDims.lhsIdx
  rw [dif_neg (show ¬(0 : Fin S512x1280.rank) ∈ dWP.lhsBatch by decide), dif_pos (show (0 : Fin S512x1280.rank) ∈ dWP.lhsNonContracting by decide)]
  rfl
theorem wp_l1 (j : S512x1024.Idx) (s : dWP.contr.Idx) : (dWP.lhsIdx j s 1).val = (s ⟨0, by decide⟩).val :=
  dWP.lhsIdx_val_of_single rfl j s
theorem wp_r0 (j : S512x1024.Idx) (s : dWP.contr.Idx) : (dWP.rhsIdx j s 0).val = (s ⟨0, by decide⟩).val :=
  dWP.rhsIdx_val_of_single rfl j s
theorem wp_r1 (j : S512x1024.Idx) (s : dWP.contr.Idx) : (dWP.rhsIdx j s 1).val = (j 1).val := by
  unfold DotDims.rhsIdx
  rw [dif_neg (show ¬(1 : Fin S1280x1024.rank) ∈ dWP.rhsBatch by decide), dif_pos (show (1 : Fin S1280x1024.rank) ∈ dWP.rhsNonContracting by decide)]
  rfl

variable (x1 : Vec Ideal S512x1024 .bf16) (x2 : Vec Ideal S1280x1024 .bf16)

/-- The score of query row r against prototype row j of the block. -/
theorem score_apply (r : Fin 512) (j : Fin 1280) :
    k0_pay9 x1 x2 (ix2 r j) = ∑ d : Fin 1024, x1 (ix2 r d) * x2 (ix2 j d) := by
  unfold k0_pay9 k0_pay8
  rw [shapeCast_self, shapeCast_self]
  exact Cert.LibContractAt.matmul_at dQP 1024 rfl rfl x1 x2 (ix2 r j) (fun k => ix2 r k) (fun k => ix2 j k)
    (fun s => funext fun a => Fin.ext (by
      match a with
      | ⟨0, _⟩ => exact qp_l0 _ s
      | ⟨1, _⟩ => exact qp_l1 _ s))
    (fun s => funext fun a => Fin.ext (by
      match a with
      | ⟨0, _⟩ => exact qp_r0 _ s
      | ⟨1, _⟩ => exact qp_r1 _ s))

/-- The new running maximum of row r. -/
theorem newMax_apply (m : Vec Ideal S512x1 .f32) (r : Fin 512) :
    newMax x1 x2 m (ix2 r (0 : Fin 1))
      = max (m (ix2 r (0 : Fin 1)))
          ((Finset.univ : Finset (Fin 1280)).fold max (Ideal.ofBits .f32 0xFF800000#32) (fun j => k0_pay9 x1 x2 (ix2 r j))) := by
  unfold newMax k0_pay2 k0_pay10
  rw [shapeCast_self]
  show max (m (ix2 r (0 : Fin 1)))
    (shapeCast S512x1 (multiReduction .maximumf [1] S512 (k0_pay9 x1 x2) 0xFF800000#32 reduces_S512x1280_S512 (.inl rfl) rfl)
      shapeCasts_S512_S512x1 (ix2 r (0 : Fin 1))) = _
  rw [Cert.LibLayout.shapeCast_a_a1_apply]
  exact congrArg (max (m (ix2 r (0 : Fin 1))))
    (Cert.LibLaneMax.laneMax_apply (k0_pay9 x1 x2) 0xFF800000#32 reduces_S512x1280_S512 (.inl rfl) rfl r)

/-- The maximum the step stores is the one its other values use. -/
theorem newMax_eq (m : Vec Ideal S512x1 .f32) : newMax x1 x2 m = k0_pay10 x1 x2 m := by
  unfold newMax k0_pay2
  rw [shapeCast_self]

/-- The factor that rescales what was gathered under the old maximum. -/
theorem scale_apply (m : Vec Ideal S512x1 .f32) (r : Fin 512) :
    k0_pay11 x1 x2 m (ix2 r (0 : Fin 1)) = Ideal.exp (m (ix2 r (0 : Fin 1)) - newMax x1 x2 m (ix2 r (0 : Fin 1))) := by
  rw [newMax_eq]
  rfl

/-- The weight of prototype j for row r. -/
theorem weight_apply (m : Vec Ideal S512x1 .f32) (r : Fin 512) (j : Fin 1280) :
    k0_pay12 x1 x2 m (ix2 r j) = Ideal.exp (k0_pay9 x1 x2 (ix2 r j) - newMax x1 x2 m (ix2 r (0 : Fin 1))) := by
  rw [newMax_eq]
  unfold k0_pay12
  show Ideal.exp (k0_pay9 x1 x2 (ix2 r j) - broadcastTo S512x1280 (k0_pay10 x1 x2 m) broadcasts_S512x1_S512x1280 (ix2 r j)) = _
  rw [Cert.LibLayout.broadcastTo_a1_ab_apply]

/-- The new running denominator of row r. -/
theorem newDen_apply (m l : Vec Ideal S512x1 .f32) (r : Fin 512) :
    newDen x1 x2 m l (ix2 r (0 : Fin 1))
      = k0_pay11 x1 x2 m (ix2 r (0 : Fin 1)) * l (ix2 r (0 : Fin 1)) + ∑ j : Fin 1280, k0_pay12 x1 x2 m (ix2 r j) := by
  unfold newDen k0_pay13
  rw [shapeCast_self]
  show k0_pay11 x1 x2 m (ix2 r (0 : Fin 1)) * l (ix2 r (0 : Fin 1))
    + shapeCast S512x1 (multiReduction .add [1] S512 (k0_pay12 x1 x2 m) 0x00000000#32 reduces_S512x1280_S512 (.inl rfl) rfl)
        shapeCasts_S512_S512x1 (ix2 r (0 : Fin 1)) = _
  rw [Cert.LibLayout.shapeCast_a_a1_apply]
  exact congrArg (k0_pay11 x1 x2 m (ix2 r (0 : Fin 1)) * l (ix2 r (0 : Fin 1)) + ·)
    (Cert.LibLayout.laneSum_apply (k0_pay12 x1 x2 m) reduces_S512x1280_S512 (.inl rfl) rfl r)

/-- The new running numerator of row r at feature d. -/
theorem newNum_apply (m : Vec Ideal S512x1 .f32) (a : Vec Ideal S512x1024 .f32) (r : Fin 512) (d : Fin 1024) :
    newNum x1 x2 m a (ix2 r d)
      = k0_pay11 x1 x2 m (ix2 r (0 : Fin 1)) * a (ix2 r d) + ∑ j : Fin 1280, k0_pay12 x1 x2 m (ix2 r j) * x2 (ix2 j d) := by
  unfold newNum k0_pay1 k0_pay14 k0_pay8
  rw [shapeCast_self, shapeCast_self]
  show broadcastTo S512x1024 (k0_pay11 x1 x2 m) broadcasts_S512x1_S512x1024 (ix2 r d) * a (ix2 r d)
    + matmul dWP none (truncf .bf16 (k0_pay12 x1 x2 m) bitsLt_bf16_f32) x2 (constant (F := Ideal) S512x1024 .f32 0x00000000#32) (ix2 r d) = _
  rw [Cert.LibLayout.broadcastTo_a1_ab_apply,
    Cert.LibContractAt.matmul_at dWP 1280 rfl rfl (truncf .bf16 (k0_pay12 x1 x2 m) bitsLt_bf16_f32) x2 (ix2 r d)
      (fun k => ix2 r k) (fun k => ix2 k d)
      (fun s => funext fun a => Fin.ext (by
        match a with
        | ⟨0, _⟩ => exact wp_l0 _ s
        | ⟨1, _⟩ => exact wp_l1 _ s))
      (fun s => funext fun a => Fin.ext (by
        match a with
        | ⟨0, _⟩ => exact wp_r0 _ s
        | ⟨1, _⟩ => exact wp_r1 _ s))]
  rfl

end Cert.KernelIdeal.StepRead

end
-- ==== Proof.LibSmallWords.lean ====
/-
  GENERAL lemmas, no program mentioned.

  * coe_sum: a finite sum of reals taken in the extended reals is the real sum (coerced).
  * slt_ofNat / sle_ofNat: the signed comparisons "<" and "≤" of two naturals below 2^31, written as 32-bit words, are the
    comparisons of the naturals (no wrap-around: both words are non-negative as signed integers).
-/
import Mathlib.Data.EReal.Basic
import Mathlib.Data.EReal.Operations
import Mathlib.Algebra.BigOperators.Group.Finset.Basic

namespace Cert.LibSmallWords

open scoped BigOperators

/-- A finite sum of reals, taken in the extended reals, is the real sum. -/
theorem coe_sum {ι : Type*} (s : Finset ι) (g : ι → ℝ) : (∑ k ∈ s, ((g k : ℝ) : EReal)) = ((∑ k ∈ s, g k : ℝ) : EReal) := by
  classical
  induction s using Finset.induction_on with
  | empty => simp
  | insert a s ha ih => rw [Finset.sum_insert ha, Finset.sum_insert ha, ih, EReal.coe_add]

/-- Signed "less than" of two small naturals, as 32-bit words. -/
theorem slt_ofNat (a b : ℕ) (ha : a < 2147483648) (hb : b < 2147483648) :
    (BitVec.ofNat 32 a).slt (BitVec.ofNat 32 b) = decide (a < b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.slt, ea, eb]
  simp

/-- Signed "at most" of two small naturals, as 32-bit words. -/
theorem sle_ofNat (a b : ℕ) (ha : a < 2147483648) (hb : b < 2147483648) :
    (BitVec.ofNat 32 a).sle (BitVec.ofNat 32 b) = decide (a ≤ b) := by
  have ea : (BitVec.ofNat 32 a).toInt = (a : Int) := by
    rw [BitVec.toInt_eq_toNat_of_lt (by rw [BitVec.toNat_ofNat]; omega), BitVec.toNat_ofNat]; omega
  have eb : (BitVec.ofNat 32 b).toInt = (b : Int) := by
    rw [BitVec.toInt_eq_toNat_of_lt (by rw [BitVec.toNat_ofNat]; omega), BitVec.toNat_ofNat]; omega
  rw [BitVec.sle, ea, eb]
  simp

end Cert.LibSmallWords
-- ==== Proof.LibSoftmaxLaws.lean ====
/-
  GENERAL LEMMAS, no program mentioned: the arithmetic of a softmax-weighted average, on the reals and then on the extended reals with the exact operations.

  For scores g v and values c v the weighted average is  (∑ v, exp (g v) * c v) / (∑ v, exp (g v)).  Two ways of
  computing it are compared with this one form:

  * subtracting ANY real number μ from every score first changes neither numerator-over-denominator (the common factor
    exp (-μ) cancels), so the number subtracted — in practice a maximum of the scores — never has to be identified;
  * normalising each weight by the denominator first and summing afterwards is the quotient of the sums;
  * the scores may be visited block by block: when the subtracted number changes from μ' to μ, the sums gathered so far
    are multiplied by exp (μ' - μ), because exp (μ' - μ) * exp (g v - μ') = exp (g v - μ).

  The extended-real forms only say that these real computations, carried out with the exact operations on coerced
  reals, stay coerced reals; the one corner used is exp ⊥ = 0 for the very first block, whose predecessor is "-∞".
-/
import Idealize.ShloMosaic.PureOps.Ideal
import Mathlib.Analysis.SpecialFunctions.Exp
import proofs.«149692_j13486197309573_2_alg».proof.Proof.LibSmallWords

noncomputable section

namespace Cert.SoftmaxLaws

open Idealize.ShloMosaic
open scoped BigOperators

/-! ## Real laws -/

/-- Changing the subtracted number from μ' to μ multiplies every gathered term by exp (μ' - μ). -/
theorem rescale {ι : Type*} (S : Finset ι) (g c : ι → ℝ) (μ' μ : ℝ) :
    Real.exp (μ' - μ) * ∑ v ∈ S, Real.exp (g v - μ') * c v = ∑ v ∈ S, Real.exp (g v - μ) * c v := by
  rw [Finset.mul_sum]
  refine Finset.sum_congr rfl fun v _ => ?_
  rw [← mul_assoc, ← Real.exp_add]
  congr 2
  ring

/-- One more block of w scores after the first n: the rescaled sum so far plus the block's terms is the sum over the
    first n + w. -/
theorem block_step (g c : ℕ → ℝ) (μ' μ : ℝ) (n w : ℕ) :
    Real.exp (μ' - μ) * (∑ v ∈ Finset.range n, Real.exp (g v - μ') * c v) + ∑ j : Fin w, Real.exp (g (n + j.val) - μ) * c (n + j.val)
      = ∑ v ∈ Finset.range (n + w), Real.exp (g v - μ) * c v := by
  rw [rescale, Finset.sum_range_add]
  congr 1
  rw [Finset.sum_range]

/-- The first block: nothing gathered before it. -/
theorem block_first (g c : ℕ → ℝ) (μ : ℝ) (w : ℕ) :
    ∑ j : Fin w, Real.exp (g (0 + j.val) - μ) * c (0 + j.val) = ∑ v ∈ Finset.range (0 + w), Real.exp (g v - μ) * c v := by
  rw [Finset.sum_range_add, Finset.sum_range_zero, zero_add, Finset.sum_range]

/-- The same two laws for the denominators (every value 1). -/
theorem block_step_den (g : ℕ → ℝ) (μ' μ : ℝ) (n w : ℕ) :
    Real.exp (μ' - μ) * (∑ v ∈ Finset.range n, Real.exp (g v - μ')) + ∑ j : Fin w, Real.exp (g (n + j.val) - μ)
      = ∑ v ∈ Finset.range (n + w), Real.exp (g v - μ) := by
  have h := block_step g (fun _ => 1) μ' μ n w
  simpa only [mul_one] using h

theorem block_first_den (g : ℕ → ℝ) (μ : ℝ) (w : ℕ) :
    ∑ j : Fin w, Real.exp (g (0 + j.val) - μ) = ∑ v ∈ Finset.range (0 + w), Real.exp (g v - μ) := by
  have h := block_first g (fun _ => 1) μ w
  simpa only [mul_one] using h

/-- Subtracting a real number from every score does not change the weighted average. -/
theorem ratio_shift {ι : Type*} (S : Finset ι) (g c : ι → ℝ) (μ : ℝ) :
    (∑ v ∈ S, Real.exp (g v - μ) * c v) / (∑ v ∈ S, Real.exp (g v - μ))
      = (∑ v ∈ S, Real.exp (g v) * c v) / (∑ v ∈ S, Real.exp (g v)) := by
  have h1 : ∀ d : ι → ℝ, ∑ v ∈ S, Real.exp (g v - μ) * d v = Real.exp (-μ) * ∑ v ∈ S, Real.exp (g v) * d v := by
    intro d
    rw [Finset.mul_sum]
    refine Finset.sum_congr rfl fun v _ => ?_
    rw [sub_eq_add_neg, Real.exp_add]
    ring
  have h2 : ∑ v ∈ S, Real.exp (g v - μ) = Real.exp (-μ) * ∑ v ∈ S, Real.exp (g v) := by
    have := h1 (fun _ => 1)
    simpa using this
  rw [h1 c, h2, mul_div_mul_left _ _ (Real.exp_ne_zero _)]

/-- Normalising each weight first and summing afterwards is the quotient of the sums. -/
theorem normalized_sum {ι : Type*} (S : Finset ι) (e c : ι → ℝ) (L : ℝ) :
    ∑ v ∈ S, (e v / L) * c v = (∑ v ∈ S, e v * c v) / L := by
  rw [Finset.sum_div]
  exact Finset.sum_congr rfl fun v _ => by ring

/-- A sum of exponentials over a non-empty index set is positive. -/
theorem sum_exp_pos {ι : Type*} (S : Finset ι) (hS : S.Nonempty) (g : ι → ℝ) : 0 < ∑ v ∈ S, Real.exp (g v) :=
  Finset.sum_pos (fun v _ => Real.exp_pos _) hS

/-! ## A function on the first n naturals continued by zero -/

/-- A function on `Fin n` as a function on all naturals (zero from n on). -/
def ext {n : ℕ} (G : Fin n → ℝ) (v : ℕ) : ℝ := if h : v < n then G ⟨v, h⟩ else 0

theorem ext_lt {n : ℕ} (G : Fin n → ℝ) (v : ℕ) (h : v < n) : ext G v = G ⟨v, h⟩ := dif_pos h

theorem sum_range_ext {n : ℕ} (G : Fin n → ℝ) (f : ℝ → ℝ) :
    ∑ v ∈ Finset.range n, f (ext G v) = ∑ v : Fin n, f (G v) := by
  rw [Finset.sum_range]
  exact Finset.sum_congr rfl fun v _ => by rw [ext_lt G v.val v.isLt]

theorem sum_range_ext₂ {n : ℕ} (G C : Fin n → ℝ) (f : ℝ → ℝ → ℝ) :
    ∑ v ∈ Finset.range n, f (ext G v) (ext C v) = ∑ v : Fin n, f (G v) (C v) := by
  rw [Finset.sum_range]
  exact Finset.sum_congr rfl fun v _ => by rw [ext_lt G v.val v.isLt, ext_lt C v.val v.isLt]

/-! ## The same computations with the exact operations on coerced reals -/

/-- A finite sum of coerced reals is the coerced sum. -/
theorem coe_sum {ι : Type*} (s : Finset ι) (g : ι → ℝ) : (∑ k ∈ s, ((g k : ℝ) : EReal)) = ((∑ k ∈ s, g k : ℝ) : EReal) :=
  Cert.LibSmallWords.coe_sum s g

/-- The exact exponential of a difference of two reals. -/
theorem exp_sub_coe (x y : ℝ) : Ideal.exp ((x : EReal) - (y : EReal)) = ((Real.exp (x - y) : ℝ) : EReal) := by
  rw [← EReal.coe_sub, Ideal.exp_coe]

/-- "-∞" minus a real is "-∞", whose exponential is 0. -/
theorem exp_bot_sub_coe (y : ℝ) : Ideal.exp ((⊥ : EReal) - (y : EReal)) = 0 := by
  rw [EReal.bot_sub, Ideal.exp_bot]

/-- A maximum of finitely many coerced reals, started from "-∞", over a non-empty index set is a coerced real. -/
theorem fold_max_real {ι : Type*} [DecidableEq ι] (S : Finset ι) (g : ι → ℝ) :
    (S = ∅ ∧ S.fold max (⊥ : EReal) (fun k => ((g k : ℝ) : EReal)) = ⊥)
      ∨ ∃ μ : ℝ, S.fold max (⊥ : EReal) (fun k => ((g k : ℝ) : EReal)) = (μ : EReal) := by
  induction S using Finset.induction_on with
  | empty => exact Or.inl ⟨rfl, rfl⟩
  | insert a s ha ih =>
    right
    rw [Finset.fold_insert ha]
    rcases ih with ⟨_, h⟩ | ⟨μ, h⟩
    · exact ⟨g a, by rw [h, max_eq_left bot_le]⟩
    · exact ⟨max (g a) μ, by rw [h]; exact (EReal.coe_strictMono.monotone.map_max).symm⟩

theorem fold_max_univ_real {n : ℕ} (g : Fin (n + 1) → ℝ) :
    ∃ μ : ℝ, (Finset.univ : Finset (Fin (n + 1))).fold max (⊥ : EReal) (fun k => ((g k : ℝ) : EReal)) = (μ : EReal) := by
  rcases fold_max_real Finset.univ g with ⟨h, _⟩ | h
  · exact absurd h (Finset.univ_nonempty.ne_empty)
  · exact h

/-- The running denominator: rescaled old value plus the block's lane sum. -/
theorem denom_step {w : ℕ} (μ' μ lam : ℝ) (σ : Fin w → ℝ) :
    Ideal.exp ((μ' : EReal) - (μ : EReal)) * (lam : EReal) + ∑ j : Fin w, Ideal.exp ((σ j : EReal) - (μ : EReal))
      = ((Real.exp (μ' - μ) * lam + ∑ j : Fin w, Real.exp (σ j - μ) : ℝ) : EReal) := by
  simp only [exp_sub_coe, coe_sum, ← EReal.coe_mul, ← EReal.coe_add]

/-- The running numerator: rescaled old value plus the block's contraction with the values. -/
theorem numer_step {w : ℕ} (μ' μ al : ℝ) (σ π : Fin w → ℝ) :
    Ideal.exp ((μ' : EReal) - (μ : EReal)) * (al : EReal) + ∑ j : Fin w, Ideal.exp ((σ j : EReal) - (μ : EReal)) * (π j : EReal)
      = ((Real.exp (μ' - μ) * al + ∑ j : Fin w, Real.exp (σ j - μ) * π j : ℝ) : EReal) := by
  simp only [exp_sub_coe, coe_sum, ← EReal.coe_mul, ← EReal.coe_add]

/-- The first block's denominator: the old maximum is "-∞" and the old sum 0. -/
theorem denom_first {w : ℕ} (μ : ℝ) (σ : Fin w → ℝ) :
    Ideal.exp ((⊥ : EReal) - (μ : EReal)) * (0 : EReal) + ∑ j : Fin w, Ideal.exp ((σ j : EReal) - (μ : EReal))
      = ((∑ j : Fin w, Real.exp (σ j - μ) : ℝ) : EReal) := by
  simp only [exp_bot_sub_coe, exp_sub_coe, coe_sum, zero_add, mul_zero]

/-- The first block's numerator. -/
theorem numer_first {w : ℕ} (μ : ℝ) (σ π : Fin w → ℝ) :
    Ideal.exp ((⊥ : EReal) - (μ : EReal)) * (0 : EReal) + ∑ j : Fin w, Ideal.exp ((σ j : EReal) - (μ : EReal)) * (π j : EReal)
      = ((∑ j : Fin w, Real.exp (σ j - μ) * π j : ℝ) : EReal) := by
  simp only [exp_bot_sub_coe, exp_sub_coe, coe_sum, zero_add, mul_zero, ← EReal.coe_mul]

/-- The exact quotient of two coerced reals with a non-zero divisor. -/
theorem div_coe_coe (a b : ℝ) (hb : b ≠ 0) : Ideal.div (a : EReal) (b : EReal) = ((a / b : ℝ) : EReal) := by
  rw [Ideal.div_coe hb, ← EReal.coe_mul]
  congr 1
  ring

end Cert.SoftmaxLaws

end
-- ==== Proof.RowSpec.lean ====
/-
  The function both programs compute, one output row at a time.

  For a query row x (1024 numbers) and the table of prototypes P (32000 rows of 1024 numbers):
    the score of prototype v is   s v = ∑ d, x d * P v d,
    the re-programmed row is the softmax-weighted average of the prototypes,
        avg d = (∑ v, exp (s v) * P v d) / (∑ v, exp (s v)),
    a linear layer and the residual give   y e = x e + ((∑ d, avg d * W e d) + b e),
    and the result is the row's normalisation
        ((y e - mean y) * rsqrt (mean (y - mean y)² + ε)) * γ e + β e,      mean z = (∑ e, z e) / 1024.
  The average is stated on the reals (the inputs being finite); everything after it is stated with the exact
  operations on extended reals, exactly as both programs spell it, so that nothing about it has to be proved.
-/
import Idealize.ShloMosaic.PureOps.Ideal
import Idealize.ShloMosaic.Lib.ValueIdx
import proofs.«149692_j13486197309573_2_alg».proof.Proof.LibSoftmaxLaws

noncomputable section

namespace Cert.RowSpec

open Idealize.ShloMosaic Idealize.ShloMosaic.ValueIdx
open scoped BigOperators

/-- The mean of a row of 1024 entries: the sum divided by the float 1024. -/
def mean (z : Fin 1024 → EReal) : EReal := Ideal.div (∑ e, z e) (Ideal.ofBits .f32 0x44800000#32)

/-- The normalisation of a row with scale g and shift bt; the float ε is kept as its word. -/
def lnRow (y g bt : Fin 1024 → EReal) (e : Fin 1024) : EReal :=
  ((y e - mean y) * Ideal.rsqrt (mean (fun e' => (y e' - mean y) * (y e' - mean y)) + Ideal.ofBits .f32 0x3727C5AC#32))
    * g e + bt e

/-- The linear layer on the re-programmed row, plus the bias, added to the query row. -/
def resid (x rp : Fin 1024 → EReal) (W : Fin 1024 → Fin 1024 → EReal) (bias : Fin 1024 → EReal) (e : Fin 1024) : EReal :=
  x e + ((∑ d, rp d * W e d) + bias e)

/-- The score of prototype v against the query row. -/
def score (x : Fin 1024 → ℝ) (P : Fin 32000 → Fin 1024 → ℝ) (v : Fin 32000) : ℝ := ∑ d, x d * P v d

/-- The softmax-weighted average of the prototypes' column d. -/
def avg (x : Fin 1024 → ℝ) (P : Fin 32000 → Fin 1024 → ℝ) (d : Fin 1024) : ℝ :=
  (∑ v, Real.exp (score x P v) * P v d) / (∑ v, Real.exp (score x P v))

/-- One output entry from the six argument arrays, at batch b, patch p, feature e. -/
def out (a0 : (⟨3, ![16, 256, 1024]⟩ : Shape).Idx → EReal) (a1 : (⟨2, ![32000, 1024]⟩ : Shape).Idx → EReal)
    (a2 : (⟨2, ![1024, 1024]⟩ : Shape).Idx → EReal) (a3 a4 a5 : (⟨1, ![1024]⟩ : Shape).Idx → EReal)
    (b : Fin 16) (p : Fin 256) (e : Fin 1024) : EReal :=
  lnRow
    (resid (fun e' => a0 (ix3 b p e'))
      (fun d => ((avg (fun dd => (a0 (ix3 b p dd)).toReal) (fun v dd => (a1 (ix2 v dd)).toReal) d : ℝ) : EReal))
      (fun e' d => a2 (ix2 e' d)) (fun e' => a3 (ix1 e')))
    (fun e' => a4 (ix1 e')) (fun e' => a5 (ix1 e')) e

/-- The whole result array. -/
def G (a0 : (⟨3, ![16, 256, 1024]⟩ : Shape).Idx → EReal) (a1 : (⟨2, ![32000, 1024]⟩ : Shape).Idx → EReal)
    (a2 : (⟨2, ![1024, 1024]⟩ : Shape).Idx → EReal) (a3 a4 a5 : (⟨1, ![1024]⟩ : Shape).Idx → EReal) :
    (⟨3, ![16, 256, 1024]⟩ : Shape).Idx → EReal :=
  fun i => out a0 a1 a2 a3 a4 a5 (i 0) (i 1) (i 2)

/-- An extended real that is neither infinity is its real part. -/
theorem coe_toReal_of_finite {x : EReal} (h : x ≠ ⊤ ∧ x ≠ ⊥) : ((x.toReal : ℝ) : EReal) = x :=
  EReal.coe_toReal h.1 h.2

/-- A contraction of two finite rows is the coerced real contraction. -/
theorem sum_mul_coe {n : ℕ} (x y : Fin n → ℝ) :
    (∑ d, ((x d : ℝ) : EReal) * ((y d : ℝ) : EReal)) = ((∑ d, x d * y d : ℝ) : EReal) := by
  simp only [← EReal.coe_mul, Cert.SoftmaxLaws.coe_sum]

end Cert.RowSpec

end
-- ==== Proof.StepInv.lean ====
/-
  What the three carried buffers hold, row by row, after the first n prototypes have been visited.

  For one query row, with real scores g v and real prototype entries cc v d (both as functions of the prototype's number
  v), the buffers are in the state "n" when, for SOME real μ (the running maximum — which real it is never matters):
      maximum     = μ
      denominator = ∑ v < n, exp (g v - μ)
      numerator d = ∑ v < n, exp (g v - μ) * cc v d.
  One grid step over a block of 1280 prototypes takes the state n to the state n + 1280, and the first step of a row block,
  which starts from the reset values -∞, 0, 0, reaches the state 0 + 1280. The new maximum is the larger of the old one and
  the block's largest score: a maximum of real numbers, hence real; the rescaling identity
  exp (μ' - μ) * exp (g v - μ') = exp (g v - μ) does the rest.
-/
import proofs.«149692_j13486197309573_2_alg».proof.Proof.StepRead
import proofs.«149692_j13486197309573_2_alg».proof.Proof.LibSoftmaxLaws
import proofs.«149692_j13486197309573_2_alg».proof.Proof.RowSpec

noncomputable section

namespace Cert.KernelIdeal.StepInv

open Cert.KernelIdeal Cert.KernelIdeal.Gen Cert.KernelIdeal.Pieces Cert.KernelIdeal.StepRead Cert.SoftmaxLaws
open Idealize.ShloMosaic Idealize.ShloMosaic.ValueIdx
open scoped BigOperators

/-- The float word of -∞ is the bottom extended real. -/
theorem ninf_word : Ideal.ofBits .f32 0xFF800000#32 = (⊥ : EReal) := by simp [Ideal.ofBits, Ideal.ieee]

/-- Row r's carried values after the first n prototypes. -/
def RowState (g : ℕ → ℝ) (cc : ℕ → Fin 1024 → ℝ) (n : ℕ) (av : FVec Ideal S512x1024 .f32) (mv lv : FVec Ideal S512x1 .f32)
    (r : Fin 512) : Prop :=
  ∃ μ : ℝ, mv (ix2 r (0 : Fin 1)) = (μ : EReal)
    ∧ lv (ix2 r (0 : Fin 1)) = ((∑ v ∈ Finset.range n, Real.exp (g v - μ) : ℝ) : EReal)
    ∧ ∀ d : Fin 1024, av (ix2 r d) = ((∑ v ∈ Finset.range n, Real.exp (g v - μ) * cc v d : ℝ) : EReal)

variable (x1 : Vec Ideal S512x1024 .bf16) (x2 : Vec Ideal S1280x1024 .bf16)

/-- With real blocks the scores are the real contractions. -/
theorem score_real (r : Fin 512) (xq : Fin 1024 → ℝ) (pb : Fin 1280 → Fin 1024 → ℝ)
    (hx1 : ∀ d, x1 (ix2 r d) = (xq d : EReal)) (hx2 : ∀ j d, x2 (ix2 j d) = (pb j d : EReal)) (j : Fin 1280) :
    k0_pay9 x1 x2 (ix2 r j) = ((∑ d, xq d * pb j d : ℝ) : EReal) := by
  rw [score_apply]
  simp only [hx1, hx2]
  exact Cert.RowSpec.sum_mul_coe _ _

/-- The reset values. -/
theorem reset_max (r : Fin 512) : k0_pay4 (F := Ideal) (ix2 r (0 : Fin 1)) = (⊥ : EReal) := by
  unfold k0_pay4
  rw [shapeCast_self]
  exact ninf_word
theorem reset_den (r : Fin 512) : k0_pay5 (F := Ideal) (ix2 r (0 : Fin 1)) = (0 : EReal) := by
  unfold k0_pay5
  rw [shapeCast_self]
  exact Ideal.ofBits_zero_f32
theorem reset_num (r : Fin 512) (d : Fin 1024) : k0_pay6 (F := Ideal) (ix2 r d) = (0 : EReal) := by
  unfold k0_pay6
  rw [shapeCast_self]
  exact Ideal.ofBits_zero_f32

/-- A step that is not the first of its row block. -/
theorem step_mid (ao : Vec Ideal S512x1024 .f32) (mo lo : Vec Ideal S512x1 .f32) (r : Fin 512)
    (xq : Fin 1024 → ℝ) (pb : Fin 1280 → Fin 1024 → ℝ)
    (hx1 : ∀ d, x1 (ix2 r d) = (xq d : EReal)) (hx2 : ∀ j d, x2 (ix2 j d) = (pb j d : EReal))
    (g : ℕ → ℝ) (cc : ℕ → Fin 1024 → ℝ) (n : ℕ)
    (hg : ∀ j : Fin 1280, g (n + j.val) = ∑ d, xq d * pb j d) (hc : ∀ (j : Fin 1280) (d : Fin 1024), cc (n + j.val) d = pb j d)
    (hprev : RowState g cc n ao mo lo r) :
    RowState g cc (n + 1280) (newNum x1 x2 mo ao) (newMax x1 x2 mo) (newDen x1 x2 mo lo) r := by
  obtain ⟨μ', hm, hl, ha⟩ := hprev
  have hs : ∀ j : Fin 1280, k0_pay9 x1 x2 (ix2 r j) = ((g (n + j.val) : ℝ) : EReal) := fun j => by
    rw [hg j]; exact score_real x1 x2 r xq pb hx1 hx2 j
  obtain ⟨β, hβ⟩ := fold_max_univ_real (n := 1279) (fun j => g (n + j.val))
  have hmax : newMax x1 x2 mo (ix2 r (0 : Fin 1)) = ((max μ' β : ℝ) : EReal) := by
    rw [newMax_apply, hm, ninf_word,
      show (fun j : Fin 1280 => k0_pay9 x1 x2 (ix2 r j)) = fun j => ((g (n + j.val) : ℝ) : EReal) from funext hs]
    rw [show (Finset.univ : Finset (Fin 1280)).fold max (⊥ : EReal) (fun j => ((g (n + j.val) : ℝ) : EReal)) = (β : EReal) from hβ]
    exact (EReal.coe_strictMono.monotone.map_max).symm
  refine ⟨max μ' β, hmax, ?_, fun d => ?_⟩
  · have hsum : ∑ j : Fin 1280, k0_pay12 x1 x2 mo (ix2 r j)
        = ∑ j : Fin 1280, Ideal.exp (((g (n + j.val) : ℝ) : EReal) - ((max μ' β : ℝ) : EReal)) :=
      Finset.sum_congr rfl fun j _ => by rw [weight_apply, hs, hmax]
    rw [newDen_apply, scale_apply, hmax, hm, hl, hsum, denom_step μ' (max μ' β) _ (fun j => g (n + j.val))]
    exact congrArg (fun x : ℝ => (x : EReal)) (block_step_den g μ' (max μ' β) n 1280)
  · have hsum : ∑ j : Fin 1280, k0_pay12 x1 x2 mo (ix2 r j) * x2 (ix2 j d)
        = ∑ j : Fin 1280, Ideal.exp (((g (n + j.val) : ℝ) : EReal) - ((max μ' β : ℝ) : EReal)) * ((cc (n + j.val) d : ℝ) : EReal) :=
      Finset.sum_congr rfl fun j _ => by rw [weight_apply, hs, hmax, hx2, hc]
    rw [newNum_apply, scale_apply, hmax, hm, ha d, hsum,
      numer_step μ' (max μ' β) _ (fun j => g (n + j.val)) (fun j => cc (n + j.val) d)]
    exact congrArg (fun x : ℝ => (x : EReal)) (block_step g (fun v => cc v d) μ' (max μ' β) n 1280)

/-- The first step of a row block, from the reset values. -/
theorem step_first (r : Fin 512) (xq : Fin 1024 → ℝ) (pb : Fin 1280 → Fin 1024 → ℝ)
    (hx1 : ∀ d, x1 (ix2 r d) = (xq d : EReal)) (hx2 : ∀ j d, x2 (ix2 j d) = (pb j d : EReal))
    (g : ℕ → ℝ) (cc : ℕ → Fin 1024 → ℝ) (n : ℕ) (hn : n = 0)
    (hg : ∀ j : Fin 1280, g (n + j.val) = ∑ d, xq d * pb j d) (hc : ∀ (j : Fin 1280) (d : Fin 1024), cc (n + j.val) d = pb j d) :
    RowState g cc (n + 1280) (newNum x1 x2 (k0_pay4 (F := Ideal)) (k0_pay6 (F := Ideal))) (newMax x1 x2 (k0_pay4 (F := Ideal)))
      (newDen x1 x2 (k0_pay4 (F := Ideal)) (k0_pay5 (F := Ideal))) r := by
  subst hn
  have hs : ∀ j : Fin 1280, k0_pay9 x1 x2 (ix2 r j) = ((g (0 + j.val) : ℝ) : EReal) := fun j => by
    rw [hg j]; exact score_real x1 x2 r xq pb hx1 hx2 j
  obtain ⟨β, hβ⟩ := fold_max_univ_real (n := 1279) (fun j => g (0 + j.val))
  have hmax : newMax x1 x2 (k0_pay4 (F := Ideal)) (ix2 r (0 : Fin 1)) = (β : EReal) := by
    rw [newMax_apply, reset_max, ninf_word,
      show (fun j : Fin 1280 => k0_pay9 x1 x2 (ix2 r j)) = fun j => ((g (0 + j.val) : ℝ) : EReal) from funext hs]
    rw [show (Finset.univ : Finset (Fin 1280)).fold max (⊥ : EReal) (fun j => ((g (0 + j.val) : ℝ) : EReal)) = (β : EReal) from hβ]
    exact max_eq_right bot_le
  refine ⟨β, hmax, ?_, fun d => ?_⟩
  · have hsum : ∑ j : Fin 1280, k0_pay12 x1 x2 (k0_pay4 (F := Ideal)) (ix2 r j)
        = ∑ j : Fin 1280, Ideal.exp (((g (0 + j.val) : ℝ) : EReal) - (β : EReal)) :=
      Finset.sum_congr rfl fun j _ => by rw [weight_apply, hs, hmax]
    rw [newDen_apply, scale_apply, hmax, reset_max, reset_den, hsum, denom_first β (fun j => g (0 + j.val))]
    exact congrArg (fun x : ℝ => (x : EReal)) (block_first_den g β 1280)
  · have hsum : ∑ j : Fin 1280, k0_pay12 x1 x2 (k0_pay4 (F := Ideal)) (ix2 r j) * x2 (ix2 j d)
        = ∑ j : Fin 1280, Ideal.exp (((g (0 + j.val) : ℝ) : EReal) - (β : EReal)) * ((cc (0 + j.val) d : ℝ) : EReal) :=
      Finset.sum_congr rfl fun j _ => by rw [weight_apply, hs, hmax, hx2, hc]
    rw [newNum_apply, scale_apply, hmax, reset_max, reset_num, hsum,
      numer_first β (fun j => g (0 + j.val)) (fun j => cc (0 + j.val) d)]
    exact congrArg (fun x : ℝ => (x : EReal)) (block_first g (fun v => cc v d) β 1280)

end Cert.KernelIdeal.StepInv

end
-- ==== Proof.Entry.lean ====
/-
  What the kernel's windows read, in terms of the six arguments.

  Before the call the host lays the query array out as 4096 rows (row R is patch R % 256 of batch R / 256), and passes it
  twice (the second copy in a narrower format: no change on extended reals), the prototype table, the TRANSPOSED weight
  matrix, and the bias, scale and shift as one-row matrices. At grid point t = 25·i + k the windows hold:
      the query rows        512·i + r            (r < 512),
      the prototype rows    1280·k + j           (j < 1280),
      the whole transposed weights and the three one-row matrices.
-/
import proofs.«149692_j13486197309573_2_alg».proof.Proof.Gen.KernelIdeal.Frame
import proofs.«149692_j13486197309573_2_alg».proof.Proof.LibLayout
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.Entry

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-! ## Layout casts between [16, 256, 1024] and [4096, 1024] -/

/-- The 16 batches of 256 patches listed as 4096 rows: row R is patch R % 256 of batch R / 256. -/
theorem rows_of_batches {α : Type} (y : (⟨3, ![16, 256, 1024]⟩ : Shape).Idx → α)
    (h : (⟨3, ![16, 256, 1024]⟩ : Shape).ShapeCasts ⟨2, ![4096, 1024]⟩) (R : Fin 4096) (k : Fin 1024) :
    shapeCast ⟨2, ![4096, 1024]⟩ y h (ix2 R k)
      = y (ix3 (⟨R.val / 256, by omega⟩ : Fin 16) (⟨R.val % 256, by omega⟩ : Fin 256) k) :=
  shapeCast_apply y h _ _ (by
    rw [Shape.rowMajor_val_two, Shape.rowMajor_val_three]
    show (R.val / 256 * 256 + R.val % 256) * 1024 + k.val = R.val * 1024 + k.val
    omega)

/-- The 4096 rows regrouped as 16 batches of 256 patches: entry (b, p, k) is row 256·b + p. -/
theorem batches_of_rows {α : Type} (x : (⟨2, ![4096, 1024]⟩ : Shape).Idx → α)
    (h : (⟨2, ![4096, 1024]⟩ : Shape).ShapeCasts ⟨3, ![16, 256, 1024]⟩) (b : Fin 16) (p : Fin 256) (k : Fin 1024) :
    shapeCast ⟨3, ![16, 256, 1024]⟩ x h (ix3 b p k) = x (ix2 (⟨b.val * 256 + p.val, by omega⟩ : Fin 4096) k) :=
  shapeCast_apply x h _ _ (by
    rw [Shape.rowMajor_val_two, Shape.rowMajor_val_three]
    rfl)

/-! ## The arrays the region finds -/

theorem entry_q (c : Dev nD) : (V m c main_v0 : S4096x1024.Idx → EReal)
    = shapeCast S4096x1024 (m ((c : Thread nD τ).loc main_arg0)) shapeCasts_S16x256x1024_S4096x1024 := by
  show StableHlo.after hostOps0 (fun b => m (c, b)) (Proc.devRef .tc main_v0) = _
  after_results
  rfl

theorem entry_qn (c : Dev nD) : (V m c main_v1 : S4096x1024.Idx → EReal)
    = shapeCast S4096x1024 (m ((c : Thread nD τ).loc main_arg0)) shapeCasts_S16x256x1024_S4096x1024 := by
  show StableHlo.after hostOps0 (fun b => m (c, b)) (Proc.devRef .tc main_v1) = _
  after_results
  rfl

theorem entry_p (c : Dev nD) : (V m c main_v2 : S32000x1024.Idx → EReal) = m ((c : Thread nD τ).loc main_arg1) := by
  show StableHlo.after hostOps0 (fun b => m (c, b)) (Proc.devRef .tc main_v2) = _
  after_results
  rfl

theorem entry_w (c : Dev nD) : (V m c main_v4 : S1024x1024.Idx → EReal)
    = transpose S1024x1024 [1, 0] (m ((c : Thread nD τ).loc main_arg2)) transposes_S1024x1024_S1024x1024_1_0 := by
  show StableHlo.after hostOps0 (fun b => m (c, b)) (Proc.devRef .tc main_v4) = _
  after_results
  rfl

theorem entry_bias (c : Dev nD) : (V m c main_v5 : S1x1024.Idx → EReal)
    = shapeCast S1x1024 (m ((c : Thread nD τ).loc main_arg3)) shapeCasts_S1024_S1x1024 := by
  show StableHlo.after hostOps0 (fun b => m (c, b)) (Proc.devRef .tc main_v5) = _
  after_results
  rfl

theorem entry_scale (c : Dev nD) : (V m c main_v6 : S1x1024.Idx → EReal)
    = shapeCast S1x1024 (m ((c : Thread nD τ).loc main_arg4)) shapeCasts_S1024_S1x1024 := by
  show StableHlo.after hostOps0 (fun b => m (c, b)) (Proc.devRef .tc main_v6) = _
  after_results
  rfl

theorem entry_shift (c : Dev nD) : (V m c main_v7 : S1x1024.Idx → EReal)
    = shapeCast S1x1024 (m ((c : Thread nD τ).loc main_arg5)) shapeCasts_S1024_S1x1024 := by
  show StableHlo.after hostOps0 (fun b => m (c, b)) (Proc.devRef .tc main_v7) = _
  after_results
  rfl

/-! ## The printed index maps over the grid -/

theorem idx_facts : ∀ t : Fin cfg0.N,
    win0_0.index t (0 : Fin 2) = t.val / 25 ∧ win0_0.index t (1 : Fin 2) = 0
    ∧ win0_1.index t (0 : Fin 2) = t.val / 25 ∧ win0_1.index t (1 : Fin 2) = 0
    ∧ win0_2.index t (0 : Fin 2) = t.val % 25 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 25 ∧ win0_7.index t (1 : Fin 2) = 0 :=
  (by decide +kernel : ∀ t : Fin grid0.N, _)

theorem row_lt (t : Fin cfg0.N) (r : Fin 512) : 512 * (t.val / 25) + r.val < 4096 := by
  have hN : cfg0.N = 200 := N_0
  have := t.isLt
  have := r.isLt
  omega

theorem proto_lt (t : Fin cfg0.N) (j : Fin 1280) : 1280 * (t.val % 25) + j.val < 32000 := by
  have := j.isLt
  omega

/-! ## The blocks the windows hold at a point -/

theorem blk_q (c : Dev nD) (t : Fin cfg0.N) (r : Fin 512) (e : Fin 1024) :
    (iblk m c 0 t : FVec Ideal S512x1024 .f32) (ix2 r e)
      = (V m c main_v0 : S4096x1024.Idx → EReal) (ix2 (⟨512 * (t.val / 25) + r.val, row_lt t r⟩ : Fin 4096) e) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 512 + 1 * r.val = 512 * (t.val / 25) + r.val; rw [e0]; omega
  | ⟨1, _⟩ => show win0_0.index t (1 : Fin 2) * 1024 + 1 * e.val = e.val; rw [e1]; omega

theorem blk_qn (c : Dev nD) (t : Fin cfg0.N) (r : Fin 512) (d : Fin 1024) :
    (iblk m c 1 t : FVec Ideal S512x1024 .bf16) (ix2 r d)
      = (V m c main_v1 : S4096x1024.Idx → EReal) (ix2 (⟨512 * (t.val / 25) + r.val, row_lt t r⟩ : Fin 4096) d) := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t (0 : Fin 2) * 512 + 1 * r.val = 512 * (t.val / 25) + r.val; rw [e0]; omega
  | ⟨1, _⟩ => show win0_1.index t (1 : Fin 2) * 1024 + 1 * d.val = d.val; rw [e1]; omega

theorem blk_p (c : Dev nD) (t : Fin cfg0.N) (j : Fin 1280) (d : Fin 1024) :
    (iblk m c 2 t : FVec Ideal S1280x1024 .bf16) (ix2 j d)
      = (V m c main_v2 : S32000x1024.Idx → EReal) (ix2 (⟨1280 * (t.val % 25) + j.val, proto_lt t j⟩ : Fin 32000) d) := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_2.index t (0 : Fin 2) * 1280 + 1 * j.val = 1280 * (t.val % 25) + j.val; rw [e0]; omega
  | ⟨1, _⟩ => show win0_2.index t (1 : Fin 2) * 1024 + 1 * d.val = d.val; rw [e1]; omega

theorem blk_w (c : Dev nD) (t : Fin cfg0.N) (d : Fin 1024) (e : Fin 1024) :
    (iblk m c 3 t : FVec Ideal S1024x1024 .bf16) (ix2 d e) = (V m c main_v4 : S1024x1024.Idx → EReal) (ix2 d e) := by
  obtain ⟨-, -, -, -, -, -, e0, e1, -⟩ := idx_facts t
  unfold iblk
  rw [View.read_apply]
  show V m c main_v4 _ = V m c main_v4 _
  congr 1
  funext a
  apply Fin.ext
  match a with
  | ⟨0, _⟩ => show win0_3.index t (0 : Fin 2) * 1024 + 1 * d.val = d.val; rw [e0]; omega
  | ⟨1, _⟩ => show win0_3.index t (1 : Fin 2) * 1024 + 1 * e.val = e.val; rw [e1]; omega

theorem blk_bias (c : Dev nD) (t : Fin cfg0.N) (e : Fin 1024) :
    (iblk m c 4 t : FVec Ideal S1x1024 .f32) (ix2 (0 : Fin 1) e) = (V m c main_v5 : S1x1024.Idx → EReal) (ix2 (0 : Fin 1) e) := by
  obtain ⟨-, -, -, -, -, -, -, -, e0, e1, -⟩ := idx_facts t
  unfold iblk
  rw [View.read_apply]
  show V m c main_v5 _ = V m c main_v5 _
  congr 1
  funext a
  apply Fin.ext
  match a with
  | ⟨0, _⟩ => show win0_4.index t (0 : Fin 2) * 1 + 1 * 0 = 0; rw [e0]
  | ⟨1, _⟩ => show win0_4.index t (1 : Fin 2) * 1024 + 1 * e.val = e.val; rw [e1]; omega

theorem blk_scale (c : Dev nD) (t : Fin cfg0.N) (e : Fin 1024) :
    (iblk m c 5 t : FVec Ideal S1x1024 .f32) (ix2 (0 : Fin 1) e) = (V m c main_v6 : S1x1024.Idx → EReal) (ix2 (0 : Fin 1) e) := by
  obtain ⟨-, -, -, -, -, -, -, -, -, -, e0, e1, -⟩ := idx_facts t
  unfold iblk
  rw [View.read_apply]
  show V m c main_v6 _ = V m c main_v6 _
  congr 1
  funext a
  apply Fin.ext
  match a with
  | ⟨0, _⟩ => show win0_5.index t (0 : Fin 2) * 1 + 1 * 0 = 0; rw [e0]
  | ⟨1, _⟩ => show win0_5.index t (1 : Fin 2) * 1024 + 1 * e.val = e.val; rw [e1]; omega

theorem blk_shift (c : Dev nD) (t : Fin cfg0.N) (e : Fin 1024) :
    (iblk m c 6 t : FVec Ideal S1x1024 .f32) (ix2 (0 : Fin 1) e) = (V m c main_v7 : S1x1024.Idx → EReal) (ix2 (0 : Fin 1) e) := by
  obtain ⟨-, -, -, -, -, -, -, -, -, -, -, -, e0, e1, -⟩ := idx_facts t
  unfold iblk
  rw [View.read_apply]
  show V m c main_v7 _ = V m c main_v7 _
  congr 1
  funext a
  apply Fin.ext
  match a with
  | ⟨0, _⟩ => show win0_6.index t (0 : Fin 2) * 1 + 1 * 0 = 0; rw [e0]
  | ⟨1, _⟩ => show win0_6.index t (1 : Fin 2) * 1024 + 1 * e.val = e.val; rw [e1]; omega

/-! ## The blocks in terms of the arguments -/

/-- The query block's entry (r, e) at point t: row 512·(t / 25) + r of the 4096, that is one patch of one batch. -/
theorem q_arg (c : Dev nD) (t : Fin cfg0.N) (r : Fin 512) (e : Fin 1024) :
    (iblk m c 0 t : FVec Ideal S512x1024 .f32) (ix2 r e)
      = m ((c : Thread nD τ).loc main_arg0)
          (ix3 (⟨(512 * (t.val / 25) + r.val) / 256, by have := row_lt t r; omega⟩ : Fin 16)
            (⟨(512 * (t.val / 25) + r.val) % 256, by omega⟩ : Fin 256) e) := by
  rw [blk_q, entry_q]
  exact rows_of_batches _ _ _ e

theorem qn_arg (c : Dev nD) (t : Fin cfg0.N) (r : Fin 512) (d : Fin 1024) :
    (iblk m c 1 t : FVec Ideal S512x1024 .bf16) (ix2 r d)
      = m ((c : Thread nD τ).loc main_arg0)
          (ix3 (⟨(512 * (t.val / 25) + r.val) / 256, by have := row_lt t r; omega⟩ : Fin 16)
            (⟨(512 * (t.val / 25) + r.val) % 256, by omega⟩ : Fin 256) d) := by
  rw [blk_qn, entry_qn]
  exact rows_of_batches _ _ _ d

theorem p_arg (c : Dev nD) (t : Fin cfg0.N) (j : Fin 1280) (d : Fin 1024) :
    (iblk m c 2 t : FVec Ideal S1280x1024 .bf16) (ix2 j d)
      = m ((c : Thread nD τ).loc main_arg1) (ix2 (⟨1280 * (t.val % 25) + j.val, proto_lt t j⟩ : Fin 32000) d) := by
  rw [blk_p, entry_p]

theorem w_arg (c : Dev nD) (t : Fin cfg0.N) (d : Fin 1024) (e : Fin 1024) :
    (iblk m c 3 t : FVec Ideal S1024x1024 .bf16) (ix2 d e) = m ((c : Thread nD τ).loc main_arg2) (ix2 e d) := by
  rw [blk_w, entry_w]
  exact transpose_ix2_apply _ _ d e

theorem bias_arg (c : Dev nD) (t : Fin cfg0.N) (e : Fin 1024) :
    (iblk m c 4 t : FVec Ideal S1x1024 .f32) (ix2 (0 : Fin 1) e) = m ((c : Thread nD τ).loc main_arg3) (ix1 e) := by
  rw [blk_bias, entry_bias]
  exact shapeCast_a_1a_apply _ _ (0 : Fin 1) e

theorem scale_arg (c : Dev nD) (t : Fin cfg0.N) (e : Fin 1024) :
    (iblk m c 5 t : FVec Ideal S1x1024 .f32) (ix2 (0 : Fin 1) e) = m ((c : Thread nD τ).loc main_arg4) (ix1 e) := by
  rw [blk_scale, entry_scale]
  exact shapeCast_a_1a_apply _ _ (0 : Fin 1) e

theorem shift_arg (c : Dev nD) (t : Fin cfg0.N) (e : Fin 1024) :
    (iblk m c 6 t : FVec Ideal S1x1024 .f32) (ix2 (0 : Fin 1) e) = m ((c : Thread nD τ).loc main_arg5) (ix1 e) := by
  rw [blk_shift, entry_shift]
  exact shapeCast_a_1a_apply _ _ (0 : Fin 1) e

end Cert.KernelIdeal.Entry

end
-- ==== Proof.Accum.lean ====
/-
  The carried buffers along the grid.

  Grid point t = 25·i + k handles query rows 512·i .. 512·i + 511 and prototypes 1280·k .. 1280·k + 1279. By induction on t:
  after point t, for every row r of the block, the three carried buffers are in the state "the first 1280·(k + 1)
  prototypes have been visited" for the query row 512·i + r — the first point of a row block (k = 0) starts from the
  reset values, every other point continues from what the point before left (same i, one block of prototypes more).
  The scores and the prototype entries are real numbers because the two arrays they come from hold finite entries.
-/
import proofs.«149692_j13486197309573_2_alg».proof.Proof.Pieces
import proofs.«149692_j13486197309573_2_alg».proof.Proof.StepInv
import proofs.«149692_j13486197309573_2_alg».proof.Proof.Entry
import proofs.«149692_j13486197309573_2_alg».proof.Proof.RowSpec
import proofs.«149692_j13486197309573_2_alg».proof.Proof.LibSoftmaxLaws

set_option maxRecDepth 16384

noncomputable section

namespace Cert.KernelIdeal.Accum

open Cert.KernelIdeal Cert.KernelIdeal.Gen Cert.KernelIdeal.Pieces Cert.KernelIdeal.StepInv Cert.KernelIdeal.Entry
open Cert.SoftmaxLaws
open Idealize.ShloMosaic Idealize.ShloMosaic.TcCoe Idealize.SL.Sem Idealize.ShloMosaic.ValueIdx
open scoped BigOperators

variable (m : (ℓ : Loc nD τ sig) → Buf (Elt Ideal) ℓ)

/-- The query array and the prototype table hold finite entries on core c. -/
def FiniteQP (c : Dev nD) : Prop :=
  (∀ i : S16x256x1024.Idx, (m ((c : Thread nD τ).loc main_arg0) i : EReal) ≠ (⊤ : EReal)
      ∧ (m ((c : Thread nD τ).loc main_arg0) i : EReal) ≠ (⊥ : EReal))
    ∧ (∀ i : S32000x1024.Idx, (m ((c : Thread nD τ).loc main_arg1) i : EReal) ≠ (⊤ : EReal)
      ∧ (m ((c : Thread nD τ).loc main_arg1) i : EReal) ≠ (⊥ : EReal))

/-- Query row R (of the 4096) as real numbers. -/
def qr (c : Dev nD) (R : ℕ) (d : Fin 1024) : ℝ :=
  if h : R < 4096 then
    (m ((c : Thread nD τ).loc main_arg0) (ix3 (⟨R / 256, by omega⟩ : Fin 16) (⟨R % 256, by omega⟩ : Fin 256) d)).toReal
  else 0

/-- The prototype table as real numbers. -/
def pr (c : Dev nD) (v : Fin 32000) (d : Fin 1024) : ℝ := (m ((c : Thread nD τ).loc main_arg1) (ix2 v d)).toReal

/-- The scores of query row R, as a function of the prototype's number. -/
def gfun (c : Dev nD) (R : ℕ) : ℕ → ℝ := ext (fun v : Fin 32000 => ∑ d, qr m c R d * pr m c v d)

/-- The prototype entries, as a function of the prototype's number. -/
def ccfun (c : Dev nD) (v : ℕ) (d : Fin 1024) : ℝ := ext (fun v' : Fin 32000 => pr m c v' d) v

theorem q_real (c : Dev nD) (hf : FiniteQP m c) (t : Fin cfg0.N) (r : Fin 512) (d : Fin 1024) :
    (iblk m c 1 t : FVec Ideal S512x1024 .bf16) (ix2 r d) = ((qr m c (512 * (t.val / 25) + r.val) d : ℝ) : EReal) := by
  rw [qn_arg]
  unfold qr
  rw [dif_pos (row_lt t r)]
  exact (Cert.RowSpec.coe_toReal_of_finite (hf.1 _)).symm

theorem p_real (c : Dev nD) (hf : FiniteQP m c) (t : Fin cfg0.N) (j : Fin 1280) (d : Fin 1024) :
    (iblk m c 2 t : FVec Ideal S1280x1024 .bf16) (ix2 j d)
      = ((pr m c (⟨1280 * (t.val % 25) + j.val, proto_lt t j⟩ : Fin 32000) d : ℝ) : EReal) := by
  rw [p_arg]
  exact (Cert.RowSpec.coe_toReal_of_finite (hf.2 _)).symm

theorem g_at (c : Dev nD) (R : ℕ) (t : Fin cfg0.N) (j : Fin 1280) :
    gfun m c R (1280 * (t.val % 25) + j.val)
      = ∑ d, qr m c R d * pr m c (⟨1280 * (t.val % 25) + j.val, proto_lt t j⟩ : Fin 32000) d :=
  ext_lt _ _ (proto_lt t j)

theorem cc_at (c : Dev nD) (t : Fin cfg0.N) (j : Fin 1280) (d : Fin 1024) :
    ccfun m c (1280 * (t.val % 25) + j.val) d = pr m c (⟨1280 * (t.val % 25) + j.val, proto_lt t j⟩ : Fin 32000) d :=
  ext_lt _ _ (proto_lt t j)

/-! ## What each kind of point leaves, over what it found -/

theorem at_first (c : Dev nD) (t : Fin cfg0.N) (h0 : t.val % 25 = 0) (h1 : ¬t.val % 25 = 24) :
    (outsAt0 m c t.val t.isLt).2.1 = newNum (iblk m c 1 t) (iblk m c 2 t) (k0_pay4 (F := Ideal)) (k0_pay6 (F := Ideal))
    ∧ (outsAt0 m c t.val t.isLt).2.2.1 = newMax (iblk m c 1 t) (iblk m c 2 t) (k0_pay4 (F := Ideal))
    ∧ (outsAt0 m c t.val t.isLt).2.2.2 = newDen (iblk m c 1 t) (iblk m c 2 t) (k0_pay4 (F := Ideal)) (k0_pay5 (F := Ideal)) := by
  refine ⟨?_, ?_, ?_⟩
  · have e := congrArg (fun z => z.2.1) (outsAt0_A m c t h0 h1)
    dsimp only at e
    exact e.trans (first_num (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))
  · have e := congrArg (fun z => z.2.2.1) (outsAt0_A m c t h0 h1)
    dsimp only at e
    exact e.trans (first_max (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))
  · have e := congrArg (fun z => z.2.2.2) (outsAt0_A m c t h0 h1)
    dsimp only at e
    exact e.trans (first_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t))

theorem at_mid (c : Dev nD) (t : Fin cfg0.N) (h0 : ¬t.val % 25 = 0) (h1 : ¬t.val % 25 = 24) :
    (outsAt0 m c t.val t.isLt).2.1 = newNum (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.1
    ∧ (outsAt0 m c t.val t.isLt).2.2.1 = newMax (iblk m c 1 t) (iblk m c 2 t) (outsAt0 m c (t.val - 1) (Nat.lt_of_le_of_lt (Nat.sub_le _ _) t.isLt)).2.2.1
    ∧ (outsAt0 m c t.val t.isLt).2.2.2 = newDen (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2 := by
  refine ⟨?_, ?_, ?_⟩
  · have e := congrArg (fun z => z.2.1) (outsAt0_B m c t h0 h1)
    dsimp only at e
    exact e.trans (mid_num (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
  · have e := congrArg (fun z => z.2.2.1) (outsAt0_B m c t h0 h1)
    dsimp only at e
    exact e.trans (mid_max (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
  · have e := congrArg (fun z => z.2.2.2) (outsAt0_B m c t h0 h1)
    dsimp only at e
    exact e.trans (mid_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

theorem at_last (c : Dev nD) (t : Fin cfg0.N) (h0 : ¬t.val % 25 = 0) (h1 : t.val % 25 = 24) :
    (outsAt0 m c t.val t.isLt).1 = k0_pay3 (F := Ideal) (k0_pay7 (F := Ideal) (iblk m c 0 t))
        (newNum (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.1)
        (newDen (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)
        (iblk m c 3 t) (iblk m c 4 t) (iblk m c 5 t) (iblk m c 6 t)
    ∧ (outsAt0 m c t.val t.isLt).2.1 = newNum (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.1
    ∧ (outsAt0 m c t.val t.isLt).2.2.1 = newMax (iblk m c 1 t) (iblk m c 2 t) (outsAt0 m c (t.val - 1) (Nat.lt_of_le_of_lt (Nat.sub_le _ _) t.isLt)).2.2.1
    ∧ (outsAt0 m c t.val t.isLt).2.2.2 = newDen (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2 := by
  refine ⟨?_, ?_, ?_, ?_⟩
  · have e := congrArg (fun z => z.1) (outsAt0_C m c t h0 h1)
    dsimp only at e
    exact e.trans (last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
  · have e := congrArg (fun z => z.2.1) (outsAt0_C m c t h0 h1)
    dsimp only at e
    exact e.trans (last_num (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
  · have e := congrArg (fun z => z.2.2.1) (outsAt0_C m c t h0 h1)
    dsimp only at e
    exact e.trans (last_max (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)
  · have e := congrArg (fun z => z.2.2.2) (outsAt0_C m c t h0 h1)
    dsimp only at e
    exact e.trans (last_den (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

/-! ## The induction -/

/-- The first point of a row block reaches the state "1280 prototypes visited". -/
theorem state_first (c : Dev nD) (hf : FiniteQP m c) (t : Fin cfg0.N) (h0 : t.val % 25 = 0) (r : Fin 512) :
    RowState (gfun m c (512 * (t.val / 25) + r.val)) (ccfun m c) (1280 * (t.val % 25) + 1280)
      (outsAt0 m c t.val t.isLt).2.1 (outsAt0 m c t.val t.isLt).2.2.1 (outsAt0 m c t.val t.isLt).2.2.2 r := by
  have h1 : ¬t.val % 25 = 24 := by omega
  obtain ⟨e0, e1, e2⟩ := at_first m c t h0 h1
  rw [e0, e1, e2]
  exact step_first (iblk m c 1 t) (iblk m c 2 t) r (qr m c (512 * (t.val / 25) + r.val))
    (fun j d => pr m c (⟨1280 * (t.val % 25) + j.val, proto_lt t j⟩ : Fin 32000) d)
    (fun d => q_real m c hf t r d) (fun j d => p_real m c hf t j d)
    (gfun m c (512 * (t.val / 25) + r.val)) (ccfun m c) (1280 * (t.val % 25)) (by omega)
    (fun j => g_at m c _ t j) (fun j d => cc_at m c t j d)

/-- Every other point continues from the state the point before left. -/
theorem state_next (c : Dev nD) (hf : FiniteQP m c) (t : Fin cfg0.N) (h0 : ¬t.val % 25 = 0) (r : Fin 512)
    (hprev : RowState (gfun m c (512 * ((t.val - 1) / 25) + r.val)) (ccfun m c) (1280 * ((t.val - 1) % 25) + 1280)
      (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r) :
    RowState (gfun m c (512 * (t.val / 25) + r.val)) (ccfun m c) (1280 * (t.val % 25) + 1280)
      (outsAt0 m c t.val t.isLt).2.1 (outsAt0 m c t.val t.isLt).2.2.1 (outsAt0 m c t.val t.isLt).2.2.2 r := by
  have a1 : (t.val - 1) / 25 = t.val / 25 := by omega
  have a2 : 1280 * ((t.val - 1) % 25) + 1280 = 1280 * (t.val % 25) := by omega
  rw [a1, a2] at hprev
  by_cases h1 : t.val % 25 = 24
  · obtain ⟨-, e0, e1, e2⟩ := at_last m c t h0 h1
    rw [e0, e1, e2]
    exact step_mid (iblk m c 1 t) (iblk m c 2 t) _ _ _ r (qr m c (512 * (t.val / 25) + r.val))
      (fun j d => pr m c (⟨1280 * (t.val % 25) + j.val, proto_lt t j⟩ : Fin 32000) d)
      (fun d => q_real m c hf t r d) (fun j d => p_real m c hf t j d)
      (gfun m c (512 * (t.val / 25) + r.val)) (ccfun m c) (1280 * (t.val % 25))
      (fun j => g_at m c _ t j) (fun j d => cc_at m c t j d) hprev
  · obtain ⟨e0, e1, e2⟩ := at_mid m c t h0 h1
    rw [e0, e1, e2]
    exact step_mid (iblk m c 1 t) (iblk m c 2 t) _ _ _ r (qr m c (512 * (t.val / 25) + r.val))
      (fun j d => pr m c (⟨1280 * (t.val % 25) + j.val, proto_lt t j⟩ : Fin 32000) d)
      (fun d => q_real m c hf t r d) (fun j d => p_real m c hf t j d)
      (gfun m c (512 * (t.val / 25) + r.val)) (ccfun m c) (1280 * (t.val % 25))
      (fun j => g_at m c _ t j) (fun j d => cc_at m c t j d) hprev

/-- After every point the carried buffers are in that point's state. -/
theorem state_all (c : Dev nD) (hf : FiniteQP m c) : ∀ (n : ℕ) (h : n < cfg0.N) (r : Fin 512),
    RowState (gfun m c (512 * (n / 25) + r.val)) (ccfun m c) (1280 * (n % 25) + 1280)
      (outsAt0 m c n h).2.1 (outsAt0 m c n h).2.2.1 (outsAt0 m c n h).2.2.2 r
  | 0, h, r => state_first m c hf ⟨0, h⟩ rfl r
  | n + 1, h, r => by
    by_cases h0 : (n + 1) % 25 = 0
    · exact state_first m c hf ⟨n + 1, h⟩ h0 r
    · exact state_next m c hf ⟨n + 1, h⟩ h0 r (state_all c hf n (Nat.lt_of_succ_lt h) r)

end Cert.KernelIdeal.Accum

end
-- ==== Proof.OutRead.lean ====
/-
  The last step's output block, entry by entry: the normalised residual row.

  From the query block x, the final numerator num and denominator den, the (transposed) weight block Wt, and the one-row
  blocks of bias, scale and shift:
      rp r d   = num r d / den r                                      (the re-programmed row)
      y r e    = x r e + ((∑ d, rp r d * Wt d e) + bias e)              (linear layer and residual)
      out r e  = ((y r e - mean (y r)) * rsqrt (mean ((y r - mean (y r))²) + ε)) * scale e + shift e
  which is the row function of the specification applied to row r. The block's arithmetic is first regrouped into four
  named stages (quotient, residual, column mean, normalisation); the regrouping is the definition unfolded.
-/
import proofs.«149692_j13486197309573_2_alg».proof.Proof.Pieces
import proofs.«149692_j13486197309573_2_alg».proof.Proof.RowSpec
import proofs.«149692_j13486197309573_2_alg».proof.Proof.LibLayout
import proofs.«149692_j13486197309573_2_alg».proof.Proof.LibContractAt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.OutRead

open Cert.KernelIdeal Cert.KernelIdeal.Gen Cert.KernelIdeal.Pieces
open Idealize.ShloMosaic Idealize.ShloMosaic.ValueIdx
open scoped BigOperators

/-- The third product's dimension record: the re-programmed rows against the columns of the transposed weights. -/
abbrev dRW : DotDims S512x1024 S1024x1024 S512x1024 := dot_S512x1024_S1024x1024_S512x1024_1_0_0_1_n_n

theorem rw_l0 (j : S512x1024.Idx) (s : dRW.contr.Idx) : (dRW.lhsIdx j s 0).val = (j 0).val := by
  unfold DotDims.lhsIdx
  rw [dif_neg (show ¬(0 : Fin S512x1024.rank) ∈ dRW.lhsBatch by decide), dif_pos (show (0 : Fin S512x1024.rank) ∈ dRW.lhsNonContracting by decide)]
  rfl
theorem rw_l1 (j : S512x1024.Idx) (s : dRW.contr.Idx) : (dRW.lhsIdx j s 1).val = (s ⟨0, by decide⟩).val :=
  dRW.lhsIdx_val_of_single rfl j s
theorem rw_r0 (j : S512x1024.Idx) (s : dRW.contr.Idx) : (dRW.rhsIdx j s 0).val = (s ⟨0, by decide⟩).val :=
  dRW.rhsIdx_val_of_single rfl j s
theorem rw_r1 (j : S512x1024.Idx) (s : dRW.contr.Idx) : (dRW.rhsIdx j s 1).val = (j 1).val := by
  unfold DotDims.rhsIdx
  rw [dif_neg (show ¬(1 : Fin S1024x1024.rank) ∈ dRW.rhsBatch by decide), dif_pos (show (1 : Fin S1024x1024.rank) ∈ dRW.rhsNonContracting by decide)]
  rfl

/-! ## The four stages -/

/-- The quotient of the numerator by the denominator column. -/
def quot (num : FVec Ideal S512x1024 .f32) (den : FVec Ideal S512x1 .f32) : FVec Ideal S512x1024 .f32 :=
  divf num (broadcastTo S512x1024 den broadcasts_S512x1_S512x1024)

/-- The linear layer, the bias and the residual. -/
def residual (x : FVec Ideal S512x1024 .f32) (rp : FVec Ideal S512x1024 .f32) (wt : FVec Ideal S1024x1024 .bf16)
    (bias : FVec Ideal S1x1024 .f32) : FVec Ideal S512x1024 .f32 :=
  addf x (addf (matmul dRW none (truncf .bf16 rp bitsLt_bf16_f32) (shapeCast S1024x1024 wt shapeCasts_S1024x1024_S1024x1024)
      (constant S512x1024 .f32 0x00000000#32))
    (broadcastTo S512x1024 (shapeCast S1x1024 bias shapeCasts_S1x1024_S1x1024) broadcasts_S1x1024_S512x1024))

/-- The column of row means. -/
def meanCol (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits .f32 0x44800000#32))

/-- The normalisation with scale and shift. -/
def normalise (y : FVec Ideal S512x1024 .f32) (g bt : FVec Ideal S1x1024 .f32) : FVec Ideal S512x1024 .f32 :=
  addf (mulf (mulf (subf y (broadcastTo S512x1024 (meanCol y) broadcasts_S512x1_S512x1024))
      (broadcastTo S512x1024
        (rsqrt (addf (meanCol (mulf (subf y (broadcastTo S512x1024 (meanCol y) broadcasts_S512x1_S512x1024))
            (subf y (broadcastTo S512x1024 (meanCol y) broadcasts_S512x1_S512x1024))))
          (broadcast S512x1 (Scalar.ofBits .f32 0x3727C5AC#32))))
        broadcasts_S512x1_S512x1024))
      (broadcastTo S512x1024 (shapeCast S1x1024 g shapeCasts_S1x1024_S1x1024) broadcasts_S1x1024_S512x1024))
    (broadcastTo S512x1024 (shapeCast S1x1024 bt shapeCasts_S1x1024_S1x1024) broadcasts_S1x1024_S512x1024)

/-- The output block's arithmetic is the four stages composed. -/
theorem out_stages (x0 : FVec Ideal S512x1024 .f32) (num : FVec Ideal S512x1024 .f32) (den : FVec Ideal S512x1 .f32)
    (x3 : FVec Ideal S1024x1024 .bf16) (x4 x5 x6 : FVec Ideal S1x1024 .f32) :
    k0_pay3 (F := Ideal) (k0_pay7 (F := Ideal) x0) num den x3 x4 x5 x6
      = normalise (residual (shapeCast S512x1024 x0 shapeCasts_S512x1024_S512x1024) (quot num den) x3 x4) x5 x6 := rfl

/-! ## The stages at an entry -/

theorem quot_apply (num : FVec Ideal S512x1024 .f32) (den : FVec Ideal S512x1 .f32) (r : Fin 512) (d : Fin 1024) :
    quot num den (ix2 r d) = Ideal.div (num (ix2 r d)) (den (ix2 r (0 : Fin 1))) := by
  show Ideal.div (num (ix2 r d)) (broadcastTo S512x1024 den broadcasts_S512x1_S512x1024 (ix2 r d)) = _
  rw [Cert.LibLayout.broadcastTo_a1_ab_apply]

theorem residual_apply (x rp : FVec Ideal S512x1024 .f32) (wt : FVec Ideal S1024x1024 .bf16) (bias : FVec Ideal S1x1024 .f32)
    (r : Fin 512) (e : Fin 1024) :
    residual x rp wt bias (ix2 r e)
      = Cert.RowSpec.resid (fun e' => x (ix2 r e')) (fun d => rp (ix2 r d)) (fun e' d => wt (ix2 d e'))
          (fun e' => bias (ix2 (0 : Fin 1) e')) e := by
  unfold residual Cert.RowSpec.resid
  rw [shapeCast_self, shapeCast_self]
  show x (ix2 r e) + (matmul dRW none (truncf .bf16 rp bitsLt_bf16_f32) wt (constant (F := Ideal) S512x1024 .f32 0x00000000#32) (ix2 r e)
    + broadcastTo S512x1024 bias broadcasts_S1x1024_S512x1024 (ix2 r e)) = _
  rw [broadcastTo_1b_ab_apply,
    Cert.LibContractAt.matmul_at dRW 1024 rfl rfl (truncf .bf16 rp bitsLt_bf16_f32) wt (ix2 r e)
      (fun k => ix2 r k) (fun k => ix2 k e)
      (fun s => funext fun a => Fin.ext (by
        match a with
        | ⟨0, _⟩ => exact rw_l0 _ s
        | ⟨1, _⟩ => exact rw_l1 _ s))
      (fun s => funext fun a => Fin.ext (by
        match a with
        | ⟨0, _⟩ => exact rw_r0 _ s
        | ⟨1, _⟩ => exact rw_r1 _ s))]
  rfl

theorem meanCol_apply (z : FVec Ideal S512x1024 .f32) (r : Fin 512) :
    meanCol z (ix2 r (0 : Fin 1)) = Cert.RowSpec.mean (fun e => z (ix2 r e)) := by
  unfold meanCol Cert.RowSpec.mean
  show Ideal.div (shapeCast S512x1 (multiReduction .add [1] S512 z 0x00000000#32 reduces_S512x1024_S512 (.inl rfl) rfl)
      shapeCasts_S512_S512x1 (ix2 r (0 : Fin 1))) (Ideal.ofBits .f32 0x44800000#32) = _
  rw [Cert.LibLayout.shapeCast_a_a1_apply]
  exact congrArg (Ideal.div · (Ideal.ofBits .f32 0x44800000#32))
    (Cert.LibLayout.laneSum_apply z reduces_S512x1024_S512 (.inl rfl) rfl r)

theorem normalise_apply (y : FVec Ideal S512x1024 .f32) (g bt : FVec Ideal S1x1024 .f32) (r : Fin 512) (e : Fin 1024) :
    normalise y g bt (ix2 r e)
      = Cert.RowSpec.lnRow (fun e' => y (ix2 r e')) (fun e' => g (ix2 (0 : Fin 1) e')) (fun e' => bt (ix2 (0 : Fin 1) e')) e := by
  unfold normalise Cert.RowSpec.lnRow
  rw [shapeCast_self, shapeCast_self]
  show ((y (ix2 r e) - broadcastTo S512x1024 (meanCol y) broadcasts_S512x1_S512x1024 (ix2 r e))
      * broadcastTo S512x1024
          (rsqrt (addf (meanCol (mulf (subf y (broadcastTo S512x1024 (meanCol y) broadcasts_S512x1_S512x1024))
              (subf y (broadcastTo S512x1024 (meanCol y) broadcasts_S512x1_S512x1024))))
            (broadcast S512x1 (Scalar.ofBits .f32 0x3727C5AC#32))))
          broadcasts_S512x1_S512x1024 (ix2 r e))
      * broadcastTo S512x1024 g broadcasts_S1x1024_S512x1024 (ix2 r e)
    + broadcastTo S512x1024 bt broadcasts_S1x1024_S512x1024 (ix2 r e) = _
  rw [broadcastTo_1b_ab_apply, broadcastTo_1b_ab_apply, Cert.LibLayout.broadcastTo_a1_ab_apply, Cert.LibLayout.broadcastTo_a1_ab_apply]
  show ((y (ix2 r e) - meanCol y (ix2 r (0 : Fin 1)))
      * Ideal.rsqrt (meanCol (mulf (subf y (broadcastTo S512x1024 (meanCol y) broadcasts_S512x1_S512x1024))
              (subf y (broadcastTo S512x1024 (meanCol y) broadcasts_S512x1_S512x1024))) (ix2 r (0 : Fin 1))
            + Ideal.ofBits .f32 0x3727C5AC#32))
      * g (ix2 (0 : Fin 1) e) + bt (ix2 (0 : Fin 1) e) = _
  rw [meanCol_apply, meanCol_apply]
  have hsq : (fun e' => mulf (subf y (broadcastTo S512x1024 (meanCol y) broadcasts_S512x1_S512x1024))
        (subf y (broadcastTo S512x1024 (meanCol y) broadcasts_S512x1_S512x1024)) (ix2 r e'))
      = fun e' => (y (ix2 r e') - Cert.RowSpec.mean (fun e'' => y (ix2 r e''))) * (y (ix2 r e') - Cert.RowSpec.mean (fun e'' => y (ix2 r e''))) := by
    funext e'
    show (y (ix2 r e') - broadcastTo S512x1024 (meanCol y) broadcasts_S512x1_S512x1024 (ix2 r e'))
      * (y (ix2 r e') - broadcastTo S512x1024 (meanCol y) broadcasts_S512x1_S512x1024 (ix2 r e')) = _
    rw [Cert.LibLayout.broadcastTo_a1_ab_apply, meanCol_apply]
  rw [hsq]

/-- The last step's output block at row r, feature e, is the specification's row function of the row's pieces. -/
theorem out_apply (x0 : FVec Ideal S512x1024 .f32) (num : FVec Ideal S512x1024 .f32) (den : FVec Ideal S512x1 .f32)
    (x3 : FVec Ideal S1024x1024 .bf16) (x4 x5 x6 : FVec Ideal S1x1024 .f32) (r : Fin 512) (e : Fin 1024) :
    k0_pay3 (F := Ideal) (k0_pay7 (F := Ideal) x0) num den x3 x4 x5 x6 (ix2 r e)
      = Cert.RowSpec.lnRow
          (Cert.RowSpec.resid (fun e' => x0 (ix2 r e')) (fun d => Ideal.div (num (ix2 r d)) (den (ix2 r (0 : Fin 1))))
            (fun e' d => x3 (ix2 d e')) (fun e' => x4 (ix2 (0 : Fin 1) e')))
          (fun e' => x5 (ix2 (0 : Fin 1) e')) (fun e' => x6 (ix2 (0 : Fin 1) e')) e := by
  rw [out_stages, normalise_apply, shapeCast_self]
  congr 1
  funext e'
  rw [residual_apply]
  congr 1
  funext d
  exact quot_apply num den r d

end Cert.KernelIdeal.OutRead

end
-- ==== Proof.OutBlock.lean ====
/-
  The block the last point of a row block writes is the specification's rows.

  At the last point (k = 24) all 32000 prototypes have been visited, so for row R = 512·i + r the carried numerator and
  denominator are  ∑ v, exp (s v - μ) * P v d  and  ∑ v, exp (s v - μ)  for some real μ. Their quotient is the
  softmax-weighted average of column d — the μ cancels — and the denominator is positive, so the exact division is the real
  one. The rest of the block's arithmetic is the specification's row function of the same six arguments.
-/
import proofs.«149692_j13486197309573_2_alg».proof.Proof.Accum
import proofs.«149692_j13486197309573_2_alg».proof.Proof.OutRead

set_option maxRecDepth 16384

noncomputable section

namespace Cert.KernelIdeal.OutBlock

open Cert.KernelIdeal Cert.KernelIdeal.Gen Cert.KernelIdeal.Pieces Cert.KernelIdeal.StepInv Cert.KernelIdeal.Entry
open Cert.KernelIdeal.Accum Cert.SoftmaxLaws
open Idealize.ShloMosaic Idealize.ShloMosaic.TcCoe Idealize.SL.Sem Idealize.ShloMosaic.ValueIdx
open scoped BigOperators

variable (m : (ℓ : Loc nD τ sig) → Buf (Elt Ideal) ℓ)

/-- The kernel's result as 4096 rows: row R is the specification's row for batch R / 256, patch R % 256. -/
def rows (c : Dev nD) : S4096x1024.Idx → EReal := fun i =>
  Cert.RowSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (⟨(i 0).val / 256, by have h : (i 0).val < 4096 := (i 0).isLt; omega⟩ : Fin 16)
    (⟨(i 0).val % 256, by omega⟩ : Fin 256) (i 1)

/-- The quotient of the final numerator by the final denominator is the weighted average. -/
theorem quotient_avg (c : Dev nD) (R : ℕ) (hR : R < 4096) (μ : ℝ) (d : Fin 1024) :
    (∑ v ∈ Finset.range 32000, Real.exp (gfun m c R v - μ) * ccfun m c v d) / (∑ v ∈ Finset.range 32000, Real.exp (gfun m c R v - μ))
      = Cert.RowSpec.avg
          (fun dd => (m ((c : Thread nD τ).loc main_arg0) (ix3 (⟨R / 256, by omega⟩ : Fin 16) (⟨R % 256, by omega⟩ : Fin 256) dd)).toReal)
          (fun v dd => (m ((c : Thread nD τ).loc main_arg1) (ix2 v dd)).toReal) d := by
  have hnum : ∑ v ∈ Finset.range 32000, Real.exp (gfun m c R v - μ) * ccfun m c v d
      = ∑ v : Fin 32000, Real.exp ((∑ dd, qr m c R dd * pr m c v dd) - μ) * pr m c v d :=
    sum_range_ext₂ (fun v : Fin 32000 => ∑ dd, qr m c R dd * pr m c v dd) (fun v' : Fin 32000 => pr m c v' d)
      (fun a b => Real.exp (a - μ) * b)
  have hden : ∑ v ∈ Finset.range 32000, Real.exp (gfun m c R v - μ)
      = ∑ v : Fin 32000, Real.exp ((∑ dd, qr m c R dd * pr m c v dd) - μ) :=
    sum_range_ext (fun v : Fin 32000 => ∑ dd, qr m c R dd * pr m c v dd) (fun a => Real.exp (a - μ))
  rw [hnum, hden, ratio_shift Finset.univ (fun v : Fin 32000 => ∑ dd, qr m c R dd * pr m c v dd) (fun v => pr m c v d) μ]
  have hqr : (fun dd => qr m c R dd)
      = fun dd => (m ((c : Thread nD τ).loc main_arg0) (ix3 (⟨R / 256, by omega⟩ : Fin 16) (⟨R % 256, by omega⟩ : Fin 256) dd)).toReal :=
    funext fun dd => dif_pos hR
  show Cert.RowSpec.avg (fun dd => qr m c R dd) (fun v dd => pr m c v dd) d = _
  rw [hqr]
  rfl

/-- The last point's block, entry (r, e), is row 512·(t / 25) + r of the result at feature e. -/
theorem out_last (c : Dev nD) (hf : FiniteQP m c) (t : Fin cfg0.N) (h1 : t.val % 25 = 24) (r : Fin 512) (e : Fin 1024) :
    (outsAt0 m c t.val t.isLt).1 (ix2 r e) = rows m c (ix2 (⟨512 * (t.val / 25) + r.val, row_lt t r⟩ : Fin 4096) e) := by
  have h0 : ¬t.val % 25 = 0 := by omega
  obtain ⟨eo, e0, e1, e2⟩ := at_last m c t h0 h1
  have hs := state_all m c hf t.val t.isLt r
  rw [e0, e1, e2, show 1280 * (t.val % 25) + 1280 = 32000 from by omega] at hs
  obtain ⟨μ, -, hl, ha⟩ := hs
  have hpos : (0 : ℝ) < ∑ v ∈ Finset.range 32000, Real.exp (gfun m c (512 * (t.val / 25) + r.val) v - μ) :=
    sum_exp_pos (Finset.range 32000) ⟨0, by simp⟩ (fun v => gfun m c (512 * (t.val / 25) + r.val) v - μ)
  rw [eo]
  refine (Cert.KernelIdeal.OutRead.out_apply (iblk m c 0 t) (newNum (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.1) (newDen (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2)
    (iblk m c 3 t) (iblk m c 4 t) (iblk m c 5 t) (iblk m c 6 t) r e).trans ?_
  have hq : (fun e' => (iblk m c 0 t : FVec Ideal S512x1024 .f32) (ix2 r e'))
      = fun e' => m ((c : Thread nD τ).loc main_arg0) (ix3 (⟨(512 * (t.val / 25) + r.val) / 256, by have := row_lt t r; omega⟩ : Fin 16) (⟨(512 * (t.val / 25) + r.val) % 256, by omega⟩ : Fin 256) e') :=
    funext fun e' => q_arg m c t r e'
  have hw : (fun (e' : Fin 1024) (d : Fin 1024) => (iblk m c 3 t : FVec Ideal S1024x1024 .bf16) (ix2 d e'))
      = fun e' d => m ((c : Thread nD τ).loc main_arg2) (ix2 e' d) :=
    funext fun e' => funext fun d => w_arg m c t d e'
  have hb : (fun e' => (iblk m c 4 t : FVec Ideal S1x1024 .f32) (ix2 (0 : Fin 1) e')) = fun e' => m ((c : Thread nD τ).loc main_arg3) (ix1 e') :=
    funext fun e' => bias_arg m c t e'
  have hg : (fun e' => (iblk m c 5 t : FVec Ideal S1x1024 .f32) (ix2 (0 : Fin 1) e')) = fun e' => m ((c : Thread nD τ).loc main_arg4) (ix1 e') :=
    funext fun e' => scale_arg m c t e'
  have hbt : (fun e' => (iblk m c 6 t : FVec Ideal S1x1024 .f32) (ix2 (0 : Fin 1) e')) = fun e' => m ((c : Thread nD τ).loc main_arg5) (ix1 e') :=
    funext fun e' => shift_arg m c t e'
  have hrp : (fun d => Ideal.div ((newNum (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.1) (ix2 r d)) ((newDen (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) (ix2 r (0 : Fin 1))))
      = fun d => ((Cert.RowSpec.avg
          (fun dd => (m ((c : Thread nD τ).loc main_arg0) (ix3 (⟨(512 * (t.val / 25) + r.val) / 256, by have := row_lt t r; omega⟩ : Fin 16) (⟨(512 * (t.val / 25) + r.val) % 256, by omega⟩ : Fin 256) dd)).toReal)
          (fun v dd => (m ((c : Thread nD τ).loc main_arg1) (ix2 v dd)).toReal) d : ℝ) : EReal) :=
    funext fun d => by
      rw [ha d, hl, div_coe_coe _ _ (ne_of_gt hpos)]
      exact congrArg (fun x : ℝ => (x : EReal)) (quotient_avg m c (512 * (t.val / 25) + r.val) (row_lt t r) μ d)
  rw [hq, hw, hb, hg, hbt, hrp]
  rfl

end Cert.KernelIdeal.OutBlock

end
-- ==== Proof.Result.lean ====
/-
  The kernel's result array.

  The output window writes its block back only after the last point of each row block (k = 24); block i is then rows
  512·i .. 512·i + 511 of the specification's rows, and the eight blocks cover the 4096 rows. The host's final reshape lists
  the rows as 16 batches of 256 patches: entry (b, p, e) is row 256·b + p, which is the specification's entry (b, p, e).
-/
import proofs.«149692_j13486197309573_2_alg».proof.Proof.OutBlock
import Idealize.ShloMosaic.Lib.Pipeline.Value
import Idealize.ShloMosaic.Lib.StableHlo.Run
import Idealize.ShloMosaic.Lib.Tactic

set_option maxRecDepth 16384

noncomputable section

namespace Cert.KernelIdeal.Result

open Cert.KernelIdeal Cert.KernelIdeal.Gen Cert.KernelIdeal.Entry Cert.KernelIdeal.Accum Cert.KernelIdeal.OutBlock
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- An index of the 4096-row array lies in point t's block iff each coordinate lies in the block's range. -/
theorem mem_blk (t : Fin cfg0.N) (i : S4096x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v8).slice (win0_7.rect t)).set ↔ _
  rw [View.set_slice_whole, Rect.mem_set_unit]
  exact Iff.rfl

/-- What a writing point writes back is its block of the specification's rows. -/
theorem flushed_eq (c : Dev nD) (hf : FiniteQP m c) (t : Fin cfg0.N) (hfl : (cfg0.win 7).flush t = true) :
    (dats m 0 c).flushed 7 t = ((cfg0.win 7).blk t).view.read (Elt Ideal) (rows m c) := by
  have h1 : t.val % 25 = 24 := (flush0_7 t).mp hfl
  obtain ⟨-, -, -, -, -, -, -, -, -, -, -, -, -, -, e0, e1⟩ := idx_facts t
  show (cfg0.win 7).cut (grid0.coords t) ((dats m 0 c).after 7 t) = _
  rw [after0_7]
  have key : ∀ y : S512x1024.Idx, (outsAt0 m c t.val t.isLt).1 y = rows m c (((cfg0.win 7).blk t).view.emb y) := fun y => by
    have hemb : ((cfg0.win 7).blk t).view.emb y
        = ix2 (⟨512 * (t.val / 25) + (y 0).val, row_lt t (y 0)⟩ : Fin 4096) (y 1) := by
      funext a
      apply Fin.ext
      match a with
      | ⟨0, _⟩ => show win0_7.index t (0 : Fin 2) * 512 + 1 * (y 0).val = 512 * (t.val / 25) + (y 0).val; rw [e0]; omega
      | ⟨1, _⟩ => show win0_7.index t (1 : Fin 2) * 1024 + 1 * (y 1).val = (y 1).val; rw [e1]; omega
    rw [hemb]
    exact (congrArg (outsAt0 m c t.val t.isLt).1 (eq_ix2 y)).trans (out_last m c hf t h1 (y 0) (y 1))
  exact funext key

/-- Every row is in the block some writing point writes. -/
theorem cover (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 200 := N_0
  have ht : 25 * ((i 0).val / 512) + 24 < cfg0.N := by rw [hN]; omega
  obtain ⟨-, -, -, -, -, -, -, -, -, -, -, -, -, -, e0, e1⟩ := idx_facts ⟨25 * ((i 0).val / 512) + 24, ht⟩
  refine ⟨⟨25 * ((i 0).val / 512) + 24, ht⟩,
    (flush0_7 _).mpr (by show (25 * ((i 0).val / 512) + 24) % 25 = 24; omega), ?_⟩
  rw [mem_blk]
  intro a
  match a with
  | ⟨0, _⟩ =>
    show win0_7.index ⟨25 * ((i 0).val / 512) + 24, ht⟩ (0 : Fin 2) * 512 ≤ (i 0).val
      ∧ (i 0).val < win0_7.index ⟨25 * ((i 0).val / 512) + 24, ht⟩ (0 : Fin 2) * 512 + 512
    rw [e0]
    show (25 * ((i 0).val / 512) + 24) / 25 * 512 ≤ (i 0).val ∧ (i 0).val < (25 * ((i 0).val / 512) + 24) / 25 * 512 + 512
    omega
  | ⟨1, _⟩ =>
    show win0_7.index ⟨25 * ((i 0).val / 512) + 24, ht⟩ (1 : Fin 2) * 1024 ≤ (i 1).val
      ∧ (i 1).val < win0_7.index ⟨25 * ((i 0).val / 512) + 24, ht⟩ (1 : Fin 2) * 1024 + 1024
    rw [e1]
    omega

/-- The 4096-row array after the call. -/
theorem final (c : Dev nD) (hf : FiniteQP m c) : (dats m 0 c).arrAt 7 cfg0.N = rows m c :=
  (dats m 0 c).arrAt_eq_of_cover 7 (rows m c) (fun t hfl => flushed_eq m c hf t hfl) (cover)

/-- The host's last line: the 4096 rows regrouped. -/
theorem tail_result (c : Dev nD) : Pipeline.afterTail₀ cfgs (dats m) 0 (V0 m) [hostOps1] c main_v9
    = shapeCast S16x256x1024 ((dats m 0 c).arrAt 7 cfg0.N) shapeCasts_S4096x1024_S16x256x1024 := by
  have hw := Pipeline.withArrays_arr spec0 launch0.win.arr_inj c (V0 m c) (fun w => (dats m 0 c).arrAt w cfg0.N) 7
  unfold Pipeline.afterTail₀
  show StableHlo.after hostOps1 _ (Proc.devRef .tc main_v9) = _
  after_results
  exact congrArg (fun z => shapeCast S16x256x1024 z shapeCasts_S4096x1024_S16x256x1024) hw

theorem rows_apply (c : Dev nD) (R : Fin 4096) (e : Fin 1024) :
    rows m c (ix2 R e) = Cert.RowSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      (⟨R.val / 256, by omega⟩ : Fin 16) (⟨R.val % 256, by omega⟩ : Fin 256) e := rfl

/-- The result array is the specification's. -/
theorem result_eq (c : Dev nD) (hf : FiniteQP m c) :
    Pipeline.afterTail₀ cfgs (dats m) 0 (V0 m) [hostOps1] c main_v9 = Cert.RowSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [tail_result, final m c hf]
  funext i
  obtain ⟨b, p, e, rfl⟩ : ∃ (b : Fin 16) (p : Fin 256) (e : Fin 1024), i = ix3 b p e := ⟨i 0, i 1, i 2, eq_ix3 i⟩
  rw [batches_of_rows, rows_apply]
  have key : ∀ (X : Fin 16) (Y : Fin 256), X = b → Y = p →
      Cert.RowSpec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) X Y e = Cert.RowSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b p e) := fun X Y hX hY => by
    rw [hX, hY]; rfl
  exact key _ _ (Fin.ext (by show (b.val * 256 + p.val) / 256 = b.val; have := p.isLt; omega))
    (Fin.ext (by show (b.val * 256 + p.val) % 256 = p.val; have := p.isLt; omega))

/-- The kernel's run: the result at the specification's array, the arguments unchanged. -/
theorem run (hfin : ∀ c, FiniteQP m c) :
    θ_run defs (onTc (τ := τ) (main (F := Ideal))) ⟨m, fun _ => 0, ρ⟩ fun r => ∀ c : Dev nD,
      r.2.mem ((c.tc : Thread nD τ).loc main_v9) = Cert.RowSpec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v9 (Pipeline.mem_restRefs_of main_v9 (by decide) (by decide))).trans (result_eq m c (hfin c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.RefStages.lean ====
/-
  The reference program, stage by stage, at an index, down to the specification's row function.

  At batch b, patch p the reference computes the scores s v against all 32000 prototypes, their maximum M (a real
  number: a maximum of finitely many reals), the weights exp (s v - M) normalised by their sum, the re-programmed row
  ∑ v, (exp (s v - M) / L) * P v d, and then the linear layer, residual and row normalisation. The re-programmed row is the
  softmax-weighted average (normalising first or last is the same quotient, and M cancels); the rest is, operation by
  operation, the specification's row function.
-/
import proofs.«149692_j13486197309573_2_alg».proof.Proof.Gen.ReferenceIdeal.Run
import proofs.«149692_j13486197309573_2_alg».proof.Proof.Gen.ReferenceIdeal.Read
import proofs.«149692_j13486197309573_2_alg».proof.Proof.RowSpec
import proofs.«149692_j13486197309573_2_alg».proof.Proof.LibSoftmaxLaws
import Idealize.ShloMosaic.Lib.ValueIdx
import Idealize.ShloMosaic.PureOps.Ideal.Laws
import Idealize.ShloMosaic.PureOps.Reduce

noncomputable section

namespace Cert.ReferenceIdeal.RefStages

open Cert.ReferenceIdeal Cert.ReferenceIdeal.Gen Cert.ReferenceIdeal.Read Cert.SoftmaxLaws
open Idealize.ShloMosaic Idealize.ShloMosaic.ValueIdx
open scoped BigOperators

/-- The float word of -∞ is the bottom extended real. -/
theorem ninf_word : Ideal.ofBits .f32 0xFF800000#32 = (⊥ : EReal) := by simp [Ideal.ofBits, Ideal.ieee]

/-! ## The printed index functions at coordinates -/

section Idx
variable (b : Fin 16) (p : Fin 256) (v : Fin 32000) (d e k : Fin 1024) (kv : Fin 32000)

theorem l0 : lidx_main_v0 (ix3 b p v) k = ix3 b p k :=
  funext fun a => Fin.ext (by
    match a with
    | ⟨0, _⟩ => rfl
    | ⟨1, _⟩ => rfl
    | ⟨2, _⟩ => rfl)
theorem r0 : ridx_main_v0 (ix3 b p v) k = ix2 v k :=
  funext fun a => Fin.ext (by
    match a with
    | ⟨0, _⟩ => rfl
    | ⟨1, _⟩ => rfl)
theorem i5 : idx_main_v4 (idx_main_v5 (ix3 b p v)) = ix2 b p :=
  funext fun a => Fin.ext (by
    match a with
    | ⟨0, _⟩ => rfl
    | ⟨1, _⟩ => rfl)
theorem i8 : idx_main_v8 (ix2 b p) kv = ix3 b p kv :=
  funext fun a => Fin.ext (by
    match a with
    | ⟨0, _⟩ => rfl
    | ⟨1, _⟩ => rfl
    | ⟨2, _⟩ => rfl)
theorem i10 : idx_main_v9 (idx_main_v10 (ix3 b p v)) = ix2 b p :=
  funext fun a => Fin.ext (by
    match a with
    | ⟨0, _⟩ => rfl
    | ⟨1, _⟩ => rfl)
theorem l12 : lidx_main_v12 (ix3 b p d) kv = ix3 b p kv :=
  funext fun a => Fin.ext (by
    match a with
    | ⟨0, _⟩ => rfl
    | ⟨1, _⟩ => rfl
    | ⟨2, _⟩ => rfl)
theorem r12 : ridx_main_v12 (ix3 b p d) kv = ix2 kv d :=
  funext fun a => Fin.ext (by
    match a with
    | ⟨0, _⟩ => rfl
    | ⟨1, _⟩ => rfl)
theorem l13 : lidx_main_v13 (ix3 b p e) k = ix3 b p k :=
  funext fun a => Fin.ext (by
    match a with
    | ⟨0, _⟩ => rfl
    | ⟨1, _⟩ => rfl
    | ⟨2, _⟩ => rfl)
theorem r13 : ridx_main_v13 (ix3 b p e) k = ix2 e k :=
  funext fun a => Fin.ext (by
    match a with
    | ⟨0, _⟩ => rfl
    | ⟨1, _⟩ => rfl)
theorem i15 : idx_main_v14 (idx_main_v15 (ix3 b p e)) = ix1 e :=
  funext fun a => Fin.ext (by
    match a with
    | ⟨0, _⟩ => rfl)
theorem i18 : idx_main_v18 (ix2 b p) k = ix3 b p k :=
  funext fun a => Fin.ext (by
    match a with
    | ⟨0, _⟩ => rfl
    | ⟨1, _⟩ => rfl
    | ⟨2, _⟩ => rfl)
theorem i22 : idx_main_v19 (idx_main_v22 (ix3 b p e)) = ix2 b p :=
  funext fun a => Fin.ext (by
    match a with
    | ⟨0, _⟩ => rfl
    | ⟨1, _⟩ => rfl)
theorem i25 : idx_main_v25 (ix2 b p) k = ix3 b p k :=
  funext fun a => Fin.ext (by
    match a with
    | ⟨0, _⟩ => rfl
    | ⟨1, _⟩ => rfl
    | ⟨2, _⟩ => rfl)
theorem i29 : idx_main_v19 (idx_main_v29 (ix3 b p e)) = ix2 b p :=
  funext fun a => Fin.ext (by
    match a with
    | ⟨0, _⟩ => rfl
    | ⟨1, _⟩ => rfl)
theorem i34 : idx_main_v26 (idx_main_v34 (ix3 b p e)) = ix2 b p :=
  funext fun a => Fin.ext (by
    match a with
    | ⟨0, _⟩ => rfl
    | ⟨1, _⟩ => rfl)
theorem i37 : idx_main_v36 (idx_main_v37 (ix3 b p e)) = ix1 e :=
  funext fun a => Fin.ext (by
    match a with
    | ⟨0, _⟩ => rfl)
theorem i40 : idx_main_v39 (idx_main_v40 (ix3 b p e)) = ix1 e :=
  funext fun a => Fin.ext (by
    match a with
    | ⟨0, _⟩ => rfl)

end Idx

variable (x0 : (⟨S16x256x1024, .f32⟩ : BufTy).Contents (Elt Ideal)) (x1 : (⟨S32000x1024, .f32⟩ : BufTy).Contents (Elt Ideal))
  (x2 : (⟨S1024x1024, .f32⟩ : BufTy).Contents (Elt Ideal)) (x3 x4 x5 : (⟨S1024, .f32⟩ : BufTy).Contents (Elt Ideal))

/-! ## The tail: residual and normalisation, as the specification spells them -/

/-- The residual row: the query row plus the linear layer of the re-programmed row plus the bias. -/
theorem residual_row (b : Fin 16) (p : Fin 256) (e : Fin 1024) :
    val_main_v17 (F := Ideal) x0 x1 x2 x3 (ix3 b p e)
      = Cert.RowSpec.resid (fun e' => x0 (ix3 b p e')) (fun d => val_main_v12 (F := Ideal) x0 x1 (ix3 b p d))
          (fun e' d => x2 (ix2 e' d)) (fun e' => x3 (ix1 e')) e := by
  unfold Cert.RowSpec.resid
  simp only [val_main_v17_apply, val_main_v16_apply, val_main_v13_apply, val_main_v15_apply, val_main_v14_apply,
    l13, r13, i15, Ideal.addf_def]

/-- The result: the normalisation of the residual row. -/
theorem normalised_row (b : Fin 16) (p : Fin 256) (e : Fin 1024) :
    val_main_v41 (F := Ideal) x0 x1 x2 x3 x4 x5 (ix3 b p e)
      = Cert.RowSpec.lnRow (fun e' => val_main_v17 (F := Ideal) x0 x1 x2 x3 (ix3 b p e')) (fun e' => x4 (ix1 e'))
          (fun e' => x5 (ix1 e')) e := by
  unfold Cert.RowSpec.lnRow Cert.RowSpec.mean
  simp only [val_main_v41_apply, val_main_v40_apply, val_main_v39_apply, val_main_v38_apply, val_main_v37_apply,
    val_main_v36_apply, val_main_v35_apply, val_main_v34_apply, val_main_v33_apply, val_main_v32_apply, val_main_v31_apply,
    val_main_cst_6_apply, val_main_v30_apply, val_main_v29_apply, val_main_v28_apply, val_main_v27_apply, val_main_cst_5_apply,
    val_main_v26_apply, val_main_v25_apply, val_main_cst_4_apply, val_main_v24_apply, val_main_v23_apply, val_main_v22_apply,
    val_main_v21_apply, val_main_v20_apply, val_main_cst_3_apply, val_main_v19_apply, val_main_v18_apply, val_main_cst_2_apply,
    i40, i37, i34, i29, i25, i22, i18,
    Ideal.addf_def, Ideal.subf_def, Ideal.mulf_def, Ideal.hostDivf_def, Ideal.hostUnary_rsqrt_def, Ideal.ofBits_def,
    Ideal.ofBits_zero_f32, zero_add]

/-! ## The re-programmed row is the weighted average -/

section Finite
variable (xr : S16x256x1024.Idx → ℝ) (pr : S32000x1024.Idx → ℝ)
  (hx0 : ∀ i, x0 i = ((xr i : ℝ) : EReal)) (hx1 : ∀ i, x1 i = ((pr i : ℝ) : EReal))
include hx0 hx1

/-- The scores are real. -/
theorem score_real (b : Fin 16) (p : Fin 256) (v : Fin 32000) :
    val_main_v0 (F := Ideal) x0 x1 (ix3 b p v)
      = ((Cert.RowSpec.score (fun dd => xr (ix3 b p dd)) (fun v' dd => pr (ix2 v' dd)) v : ℝ) : EReal) := by
  rw [val_main_v0_apply]
  simp only [l0, r0, hx0, hx1]
  exact Cert.RowSpec.sum_mul_coe _ _

/-- Every entry of the score array is real. -/
theorem score_all (i : S16x256x32000.Idx) : ∃ s : ℝ, val_main_v0 (F := Ideal) x0 x1 i = ((s : ℝ) : EReal) := by
  obtain ⟨b, p, v, rfl⟩ : ∃ (b : Fin 16) (p : Fin 256) (v : Fin 32000), i = ix3 b p v := ⟨i 0, i 1, i 2, eq_ix3 i⟩
  exact ⟨_, score_real x0 x1 xr pr hx0 hx1 b p v⟩

/-- The maximum of a row of scores is a real number. -/
theorem max_real (b : Fin 16) (p : Fin 256) : ∃ M : ℝ, val_main_v3 (F := Ideal) x0 x1 (ix2 b p) = ((M : ℝ) : EReal) := by
  classical
  have hfun : val_main_v0 (F := Ideal) x0 x1 = fun i => (((val_main_v0 (F := Ideal) x0 x1 i).toReal : ℝ) : EReal) :=
    funext fun i => by
      obtain ⟨s, hs⟩ := score_all x0 x1 xr pr hx0 hx1 i
      rw [hs, EReal.toReal_coe]
  have hne : (Finset.univ.filter fun i : S16x256x32000.Idx => reducesTo_S16x256x32000_S16x256_d2.drop i = ix2 b p) ≠ ∅ := by
    refine Finset.ne_empty_of_mem (a := ix3 b p (⟨0, by omega⟩ : Fin 32000)) ?_
    rw [Finset.mem_filter]
    refine ⟨Finset.mem_univ _, ?_⟩
    funext a
    match a with
    | ⟨0, _⟩ => rfl
    | ⟨1, _⟩ => rfl
  have hfold : val_main_v1 (F := Ideal) x0 x1 (ix2 b p)
      = (Finset.univ.filter fun i : S16x256x32000.Idx => reducesTo_S16x256x32000_S16x256_d2.drop i = ix2 b p).fold max (⊥ : EReal)
          (fun i => (((val_main_v0 (F := Ideal) x0 x1 i).toReal : ℝ) : EReal)) := by
    unfold val_main_v1
    rw [Host.reduce_eq_fold, ← hfun]
    show Finset.fold max (Ideal.ofBits .f32 0xFF800000#32) _ _ = _
    rw [ninf_word]
  rcases fold_max_real (Finset.univ.filter fun i : S16x256x32000.Idx => reducesTo_S16x256x32000_S16x256_d2.drop i = ix2 b p)
      (fun i => (val_main_v0 (F := Ideal) x0 x1 i).toReal) with ⟨he, _⟩ | ⟨μ, hμ⟩
  · exact absurd he hne
  · refine ⟨μ, ?_⟩
    rw [val_main_v3_apply, val_main_v2_apply, val_main_cst_0_apply, hfold, hμ]
    show max (Ideal.ofBits .f32 0xFF800000#32) ((μ : ℝ) : EReal) = _
    rw [ninf_word]
    exact max_eq_right bot_le

/-- The re-programmed row is the softmax-weighted average of the prototypes. -/
theorem reprogrammed_row (b : Fin 16) (p : Fin 256) (d : Fin 1024) :
    val_main_v12 (F := Ideal) x0 x1 (ix3 b p d)
      = ((Cert.RowSpec.avg (fun dd => xr (ix3 b p dd)) (fun v dd => pr (ix2 v dd)) d : ℝ) : EReal) := by
  obtain ⟨M, hM⟩ := max_real x0 x1 xr pr hx0 hx1 b p
  have hE : ∀ v : Fin 32000, val_main_v7 (F := Ideal) x0 x1 (ix3 b p v)
      = ((Real.exp (Cert.RowSpec.score (fun dd => xr (ix3 b p dd)) (fun v' dd => pr (ix2 v' dd)) v - M) : ℝ) : EReal) := fun v => by
    rw [val_main_v7_apply, val_main_v6_apply, val_main_v5_apply, val_main_v4_apply, i5, hM,
      score_real x0 x1 xr pr hx0 hx1 b p v]
    exact exp_sub_coe _ _
  have hL : val_main_v8 (F := Ideal) x0 x1 (ix2 b p)
      = ((∑ v : Fin 32000, Real.exp (Cert.RowSpec.score (fun dd => xr (ix3 b p dd)) (fun v' dd => pr (ix2 v' dd)) v - M) : ℝ) : EReal) := by
    rw [val_main_v8_apply, val_main_cst_1_apply]
    simp only [i8, hE, Ideal.ofBits_def, Ideal.ofBits_zero_f32, zero_add, coe_sum]
  have hpos : (0 : ℝ) < ∑ v : Fin 32000, Real.exp (Cert.RowSpec.score (fun dd => xr (ix3 b p dd)) (fun v' dd => pr (ix2 v' dd)) v - M) :=
    sum_exp_pos Finset.univ ⟨(⟨0, by omega⟩ : Fin 32000), Finset.mem_univ _⟩ _
  have hA : ∀ v : Fin 32000, val_main_v11 (F := Ideal) x0 x1 (ix3 b p v)
      = ((Real.exp (Cert.RowSpec.score (fun dd => xr (ix3 b p dd)) (fun v' dd => pr (ix2 v' dd)) v - M)
          / ∑ u : Fin 32000, Real.exp (Cert.RowSpec.score (fun dd => xr (ix3 b p dd)) (fun v' dd => pr (ix2 v' dd)) u - M) : ℝ) : EReal) := fun v => by
    rw [val_main_v11_apply, val_main_v10_apply, val_main_v9_apply, i10, hE v, hL]
    exact div_coe_coe _ _ (ne_of_gt hpos)
  rw [val_main_v12_apply]
  simp only [l12, r12, hA, hx1, ← EReal.coe_mul, coe_sum]
  refine congrArg (fun x : ℝ => (x : EReal)) ?_
  rw [normalized_sum Finset.univ
      (fun v : Fin 32000 => Real.exp (Cert.RowSpec.score (fun dd => xr (ix3 b p dd)) (fun v' dd => pr (ix2 v' dd)) v - M))
      (fun v => pr (ix2 v d)),
    ratio_shift Finset.univ (Cert.RowSpec.score (fun dd => xr (ix3 b p dd)) (fun v' dd => pr (ix2 v' dd))) (fun v => pr (ix2 v d)) M]
  rfl

end Finite

/-- With finite query and prototype arrays the reference's result is the specification's array. -/
theorem result_eq (hf0 : ∀ i, x0 i ≠ (⊤ : EReal) ∧ x0 i ≠ (⊥ : EReal)) (hf1 : ∀ i, x1 i ≠ (⊤ : EReal) ∧ x1 i ≠ (⊥ : EReal)) :
    val_main_v41 (F := Ideal) x0 x1 x2 x3 x4 x5 = Cert.RowSpec.G x0 x1 x2 x3 x4 x5 := by
  funext i
  obtain ⟨b, p, e, rfl⟩ : ∃ (b : Fin 16) (p : Fin 256) (e : Fin 1024), i = ix3 b p e := ⟨i 0, i 1, i 2, eq_ix3 i⟩
  show _ = Cert.RowSpec.out x0 x1 x2 x3 x4 x5 b p e
  unfold Cert.RowSpec.out
  rw [normalised_row]
  have hrow : (fun e' => val_main_v17 (F := Ideal) x0 x1 x2 x3 (ix3 b p e'))
      = Cert.RowSpec.resid (fun e' => x0 (ix3 b p e'))
          (fun d => ((Cert.RowSpec.avg (fun dd => (x0 (ix3 b p dd)).toReal) (fun v dd => (x1 (ix2 v dd)).toReal) d : ℝ) : EReal))
          (fun e' d => x2 (ix2 e' d)) (fun e' => x3 (ix1 e')) :=
    funext fun e' => by
      have hrp : (fun d => val_main_v12 (F := Ideal) x0 x1 (ix3 b p d))
          = fun d => ((Cert.RowSpec.avg (fun dd => (x0 (ix3 b p dd)).toReal) (fun v dd => (x1 (ix2 v dd)).toReal) d : ℝ) : EReal) :=
        funext fun d => reprogrammed_row x0 x1 (fun i => (x0 i).toReal) (fun i => (x1 i).toReal)
          (fun i => (Cert.RowSpec.coe_toReal_of_finite (hf0 i)).symm) (fun i => (Cert.RowSpec.coe_toReal_of_finite (hf1 i)).symm) b p d
      rw [residual_row, hrp]
  rw [hrow]

end Cert.ReferenceIdeal.RefStages

end
-- ==== Proof.Finite.lean ====
/-
  The precondition read back: every entry of the query array and of the prototype table is a finite number.

  The printed predicate is a conjunction of six tests "all |x| < +∞", one per argument. Of an extended real x, the test
  |x| < +∞ fails exactly at x = +∞ and x = -∞ (where |x| = +∞). Only the first two conjuncts are used: the other four
  arguments enter both programs through the same exact operations and need no finiteness.
-/
import proofs.«149692_j13486197309573_2_alg».proof.Pre_finite_inputs
import proofs.«149692_j13486197309573_2_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Cert.Pre_finite_inputs Idealize.ShloMosaic

instance : Subsingleton S_.Idx := ⟨fun a b => funext fun d => d.elim0⟩

/-- The float word of +∞ is the top extended real. -/
theorem pinf_word : Ideal.ofBits .f32 0x7F800000#32 = (⊤ : EReal) := by simp [Ideal.ofBits, Ideal.ieee]

/-- An extended real whose absolute value is below +∞ is neither infinity. -/
theorem finite_of_abs_lt (x : EReal) (h : Ideal.cmp .olt (max x (-x)) (Ideal.ofBits .f32 0x7F800000#32) = 1#1) :
    x ≠ (⊤ : EReal) ∧ x ≠ (⊥ : EReal) := by
  rw [pinf_word] at h
  induction x using EReal.rec with
  | bot =>
    exfalso
    have e : max (⊥ : EReal) (-(⊥ : EReal)) = ⊤ := by rw [EReal.neg_bot]; exact max_eq_right bot_le
    rw [e] at h
    simp [Ideal.cmp] at h
  | coe r => exact ⟨EReal.coe_ne_top r, EReal.coe_ne_bot r⟩
  | top =>
    exfalso
    have e : max (⊤ : EReal) (-(⊤ : EReal)) = ⊤ := max_eq_left le_top
    rw [e] at h
    simp [Ideal.cmp] at h

/-- The first two conjuncts of the precondition, entry by entry. -/
theorem finite_of_pre (a0 : FVec Ideal S16x256x1024 .f32) (a1 : FVec Ideal S32000x1024 .f32) (a2 : FVec Ideal S1024x1024 .f32)
    (a3 a4 a5 : FVec Ideal S1024 .f32) (h : fn (F := Ideal) a0 a1 a2 a3 a4 a5 = fun _ => 1#1) :
    (∀ i, a0 i ≠ (⊤ : EReal) ∧ a0 i ≠ (⊥ : EReal)) ∧ (∀ i, a1 i ≠ (⊤ : EReal) ∧ a1 i ≠ (⊥ : EReal)) := by
  have h0 := congrFun h ValueIdx.ix0
  dsimp only [fn, fn_part1] at h0
  obtain ⟨h23, -⟩ := IntOp.andi_eq_one.mp h0
  obtain ⟨h18, -⟩ := IntOp.andi_eq_one.mp h23
  obtain ⟨h13, -⟩ := IntOp.andi_eq_one.mp h18
  obtain ⟨h8, -⟩ := IntOp.andi_eq_one.mp h13
  obtain ⟨h3, h7⟩ := IntOp.andi_eq_one.mp h8
  refine ⟨fun i => ?_, fun i => ?_⟩
  · exact finite_of_abs_lt (a0 i) (Host.reduce_andi_all _ _ _ _ _ h3 i)
  · exact finite_of_abs_lt (a1 i) (Host.reduce_andi_all _ _ _ _ _ h7 i)

end Cert.FiniteInputs

end
-- ==== Proof.lean ====
/-
  The kernel computes, for each of 4096 query rows x and a table P of 32000 prototypes,
      avg d = (∑ v, exp (s v) * P v d) / (∑ v, exp (s v)),     s v = ∑ d, x d * P v d,
  then  y = x + (avg · Wᵀ + b)  and the row normalisation of y with scale γ and shift β. It visits the prototypes in 25
  blocks of 1280, carrying a running maximum, denominator and numerator that are rescaled whenever the maximum grows; the
  reference subtracts the maximum over all 32000 scores, normalises the weights and then averages. Over the reals both are
  the weighted average above, because subtracting any real number from all scores cancels in the quotient — so neither
  maximum has to be identified, only shown to be a real number. That needs the query array and the prototype table to be
  finite, which the precondition gives. Everything after the average is the same chain of exact operations in both
  programs and is compared as written.

  The three frame claims: the two kernels' are the generated frames; the reference's is its generated run with the result
  dropped. The idealization rewrote nothing, so it is preserved trivially.
-/
import proofs.«149692_j13486197309573_2_alg».proof.Defs
import proofs.«149692_j13486197309573_2_alg».proof.Proof.Gen.Kernel
import proofs.«149692_j13486197309573_2_alg».proof.Proof.Gen.Kernel.Skeleton
import proofs.«149692_j13486197309573_2_alg».proof.Proof.Gen.Kernel.Launch
import proofs.«149692_j13486197309573_2_alg».proof.Proof.Gen.Kernel.Points
import proofs.«149692_j13486197309573_2_alg».proof.Proof.Gen.Kernel.Frame
import proofs.«149692_j13486197309573_2_alg».proof.Proof.Gen.KernelIdeal
import proofs.«149692_j13486197309573_2_alg».proof.Proof.Gen.KernelIdeal.Skeleton
import proofs.«149692_j13486197309573_2_alg».proof.Proof.Gen.KernelIdeal.Launch
import proofs.«149692_j13486197309573_2_alg».proof.Proof.Gen.KernelIdeal.Points
import proofs.«149692_j13486197309573_2_alg».proof.Proof.Gen.KernelIdeal.Frame
import proofs.«149692_j13486197309573_2_alg».proof.Proof.Gen.ReferenceIdeal
import proofs.«149692_j13486197309573_2_alg».proof.Proof.Gen.ReferenceIdeal.Run
import proofs.«149692_j13486197309573_2_alg».proof.Proof.Gen.ReferenceIdeal.Read
import proofs.«149692_j13486197309573_2_alg».proof.Proof.Gen.Pre_finite_inputs
import proofs.«149692_j13486197309573_2_alg».proof.Proof.Result
import proofs.«149692_j13486197309573_2_alg».proof.Proof.RefStages
import proofs.«149692_j13486197309573_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the specification's array of the (agreeing) arguments. -/
theorem algebraic : Cert.algebraic_KernelIdeal_ReferenceIdeal := by
  intro m ρ m' ρ' hpre hagree
  have hfin : ∀ c, Cert.KernelIdeal.Accum.FiniteQP m c := fun c =>
    Cert.FiniteInputs.finite_of_pre _ _ _ _ _ _ (hpre c)
  refine ⟨fun c => Cert.RowSpec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Result.run m ρ hfin, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v41_eq, (hagree c).1, (hagree c).2.1, (hagree c).2.2.1, (hagree c).2.2.2.1,
    (hagree c).2.2.2.2.1, (hagree c).2.2.2.2.2]
  exact Cert.ReferenceIdeal.RefStages.result_eq _ _ _ _ _ _ (hfin c).1 (hfin c).2

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
